-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S2x128 : Shape := ⟨2, ![2, 128]⟩

abbrev nBuf : Space → Nat
  | .hbm => 74
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S2x128, .f32⟩
  | .hbm, ⟨63, _⟩ => ⟨S1x128, .f32⟩
  | .hbm, ⟨64, _⟩ => ⟨S_, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S2x128, .f32⟩
  | .local _ .vmem, ⟨9, _⟩ => ⟨S10000x128, .f32⟩
  | .local _ .vmem, ⟨10, _⟩ => ⟨S10000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem6_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S2x128_S2x128_0_0 : ∀ a, (![0, 0] : Fin 2 → Nat) a + S2x128.size a ≤ S2x128.size a
  h_S2x128 : 0 < S2x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S128 : S10000x128.Reduces [0] S128
  shapeCasts_S2x128_S2x128 : S2x128.ShapeCasts S2x128
  concatenates_S1x128_S1x128_S2x128_d0 : Shape.Concatenates [S1x128, S1x128] S2x128 0
  slices_S2x128_S1x128_0_0 : S2x128.Slices ![0, 0] S1x128
  bcast_S_S1x128 : S_.BroadcastsInDim S1x128 (![] : Fin 0 → Fin S1x128.rank)
  slices_S2x128_S1x128_1_0 : S2x128.Slices ![1, 0] S1x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x128.size a ≤ S2x128.size a
  hwx1_2 : ∀ i : grid1.Coords, EltTy.bits .f32 = 32 ∨ (Rect.block (s := S2x128) S2x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S100000x128.size a
  hwx2_6 : ∀ i : grid2.Coords, EltTy.bits .f32 = 32 ∨ (Rect.block (s := S100000x128) S10000x128.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S100000x128, .f32⟩
  | .hbm, ⟨108, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_cst_1 : Ref sig .tc := ⟨.hbm, 78, rfl⟩
abbrev main_call0_v8 : Ref sig .tc := ⟨.hbm, 79, rfl⟩
abbrev main_call0_cst_2 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_cst_3 : Ref sig .tc := ⟨.hbm, 84, rfl⟩
abbrev main_call0_v12 : Ref sig .tc := ⟨.hbm, 85, rfl⟩
abbrev main_call0_cst_4 : Ref sig .tc := ⟨.hbm, 86, rfl⟩
abbrev main_call0_call0_v0 : Ref sig .tc := ⟨.hbm, 87, rfl⟩
abbrev main_call0_call0_v1 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_11 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_call1_cst : Ref sig .tc := ⟨.hbm, 106, rfl⟩
abbrev main_call1_v0 : Ref sig .tc := ⟨.hbm, 107, rfl⟩
abbrev main_v65 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The kernel program's run at the exact instance, with its result array named.

  @main is six segments: three stretches of host operations and three grid pipelines (a matrix product, a
  column-statistics accumulation, a normalisation). The buffers' contents at each segment boundary are a fold from
  the launch memory; at the last boundary every unscoped buffer holds the last fold's value. Reading that state at
  the result array gives the statement below: every weakly fair execution terminates, the result array holds the
  last fold at its buffer, and the six argument arrays are as launched.
-/
import proofs.«172672_j70489003262548_1_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last boundary's
    contents of its buffer, and each argument array ends as launched. -/
theorem run_last : θ_run defs (onTc (τ := τ) (main (F := F))) ⟨m, fun _ => 0, ρ⟩ (fun r => ∀ c : Dev nD,
      r.2.mem ((c.tc : Thread nD τ).loc main_v55) = W6 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v55 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KVal

end
-- ==== Proof.RefStages.lean ====
import proofs.«172672_j70489003262548_1_alg».proof.Proof.Gen.ReferenceIdeal
import Idealize.ShloMosaic.PureOps.Ideal

/-! The reference's result as a composition of named stages.

The graph layer, read off the reference's operation list: the edge list is extended by one self-loop per node
(source and destination vectors of 1 700 000 entries); a node's degree is the number of edges arriving at it, its
weight the inverse square root of the degree (at least one); an edge's coefficient is the product of its two
ends' weights; every edge carries its source's row of the projected features, scaled by the coefficient, to its
destination, where the rows are summed. The bias is added, each column is normalised by its mean and variance
over the nodes, scaled and shifted, and the negative part is dropped. Each stage below is literally the
operations' functions composed, at the ideal floats (a float an extended real), so that the fold of the
operation list at the result buffer is their composition by computation. -/

noncomputable section

namespace Cert.ReferenceIdeal.RefRun

open Cert.ReferenceIdeal Cert.ReferenceIdeal.Gen Idealize.ShloMosaic

/-- The edges' sources: row 0 of the edge list, then one self-loop per node. -/
def srcOf (ei : (⟨S2x1600000, .i32⟩ : BufTy).Contents (Elt Ideal)) : (⟨S1700000, .i32⟩ : BufTy).Contents (Elt Ideal) :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The edges' destinations: row 1 of the edge list, then one self-loop per node. -/
def dstOf (ei : (⟨S2x1600000, .i32⟩ : BufTy).Contents (Elt Ideal)) : (⟨S1700000, .i32⟩ : BufTy).Contents (Elt Ideal) :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A gather's index column: a negative node number counted from the end (100000 added), the vector stood up
    as one column. -/
def wrapIdx (v : (⟨S1700000, .i32⟩ : BufTy).Contents (Elt Ideal)) : (⟨S1700000x1, .i32⟩ : BufTy).Contents (Elt Ideal) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- A node's weight: the inverse square root of the number of edges arriving at it (one added per arriving edge
    into zeros), the count taken as at least one. -/
def disOf (ei : (⟨S2x1600000, .i32⟩ : BufTy).Contents (Elt Ideal)) : (⟨S100000, .f32⟩ : BufTy).Contents (Elt Ideal) :=
  Host.rsqrt (F := Ideal) (φ := .f32) (maximumf (F := Ideal) (φ := .f32)
    (Host.scatterAdd (F := Ideal) (φ := .f32) scatter_S100000_S1700000x1_S1700000_n_0_0_1
      (broadcastInDim S100000 ![] bcast_S_S100000 (constant (F := Ideal) S_ .f32 0x00000000#32))
      (broadcastInDim S1700000x1 ![0] bcast_S1700000_S1700000x1_0 (dstOf ei))
      (broadcastInDim S1700000 ![] bcast_S_S1700000 (constant (F := Ideal) S_ .f32 0x3F800000#32)))
    (broadcastInDim S100000 ![] bcast_S_S100000 (constant (F := Ideal) S_ .f32 0x3F800000#32)))

/-- An edge's coefficient: its source's weight times its destination's. -/
def normOf (ei : (⟨S2x1600000, .i32⟩ : BufTy).Contents (Elt Ideal)) : (⟨S1700000, .f32⟩ : BufTy).Contents (Elt Ideal) :=
  mulf (F := Ideal) (φ := .f32) (Host.gather gather_S100000_S1700000x1_S1700000_n_0_n_n_0_1_1 (disOf ei) (wrapIdx (srcOf ei)))
    (Host.gather gather_S100000_S1700000x1_S1700000_n_0_n_n_0_1_1 (disOf ei) (wrapIdx (dstOf ei)))

/-- The aggregation, as a function of the matrix whose rows travel: every edge takes its source's row, scaled
    by the edge's coefficient, and the rows arriving at a node are summed into zeros. -/
def rawOf (xw : (⟨S100000x128, .f32⟩ : BufTy).Contents (Elt Ideal)) (ei : (⟨S2x1600000, .i32⟩ : BufTy).Contents (Elt Ideal)) : (⟨S100000x128, .f32⟩ : BufTy).Contents (Elt Ideal) :=
  Host.scatterAdd (F := Ideal) (φ := .f32) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 (dstOf ei))
    (mulf (F := Ideal) (φ := .f32) (Host.gather gather_S100000x128_S1700000x1_S1700000x128_1_0_n_n_0_1_1128 xw (wrapIdx (srcOf ei)))
      (broadcastInDim S1700000x128 ![0, 1] bcast_S1700000x1_S1700000x128_0_1
        (broadcastInDim S1700000x1 ![0] bcast_S1700000_S1700000x1_0 (normOf ei))))

/-- A vector of 128 repeated on every one of the 100000 rows (as one row first). -/
def rowBc (v : (⟨S128, .f32⟩ : BufTy).Contents (Elt Ideal)) : (⟨S100000x128, .f32⟩ : BufTy).Contents (Elt Ideal) :=
  broadcastInDim S100000x128 ![0, 1] bcast_S1x128_S100000x128_0_1 (broadcastInDim S1x128 ![1] bcast_S128_S1x128_1 v)

/-- The column means: the sum over the rows divided by their number. -/
def meanOf (o : (⟨S100000x128, .f32⟩ : BufTy).Contents (Elt Ideal)) : (⟨S128, .f32⟩ : BufTy).Contents (Elt Ideal) :=
  Host.divf (F := Ideal) (φ := .f32) (Host.reduceAdd (F := Ideal) (φ := .f32) o (constant (F := Ideal) S_ .f32 0x00000000#32) reducesTo_S100000x128_S128_d0 h_S_)
    (broadcastInDim S128 ![] bcast_S_S128 (constant (F := Ideal) S_ .f32 0x47C35000#32))

/-- Inside the variance: every entry less its column's mean (the mean taken there as one row, then repeated). -/
def devOf (o : (⟨S100000x128, .f32⟩ : BufTy).Contents (Elt Ideal)) : (⟨S100000x128, .f32⟩ : BufTy).Contents (Elt Ideal) :=
  subf (F := Ideal) (φ := .f32) o (broadcastInDim S100000x128 ![0, 1] bcast_S1x128_S100000x128_0_1
    (Host.divf (F := Ideal) (φ := .f32)
      (broadcastInDim S1x128 ![1] bcast_S128_S1x128_1
        (Host.reduceAdd (F := Ideal) (φ := .f32) o (constant (F := Ideal) S_ .f32 0x00000000#32) reducesTo_S100000x128_S128_d0 h_S_))
      (broadcastInDim S1x128 ![] bcast_S_S1x128 (constant (F := Ideal) S_ .f32 0x47C35000#32))))

/-- Inside the variance: the divisor, the number of rows less the correction (zero here). -/
def cntOf : (⟨S_, .f32⟩ : BufTy).Contents (Elt Ideal) :=
  subf (F := Ideal) (φ := .f32) (constant (F := Ideal) S_ .f32 0x47C35000#32) (sitofp (F := Ideal) .f32 (constantI S_ 32 0#32))

/-- The column variances: the sum of the squared deviations over the divisor, where the divisor is positive
    (otherwise the not-a-number constant). -/
def varOf (o : (⟨S100000x128, .f32⟩ : BufTy).Contents (Elt Ideal)) : (⟨S128, .f32⟩ : BufTy).Contents (Elt Ideal) :=
  select (broadcastInDim S128 ![] bcast_S_S128 (cmpf (F := Ideal) (φ := .f32) .ogt cntOf (constant (F := Ideal) S_ .f32 0x00000000#32)))
    (Host.divf (F := Ideal) (φ := .f32)
      (Host.reduceAdd (F := Ideal) (φ := .f32) (mulf (F := Ideal) (φ := .f32) (devOf o) (devOf o)) (constant (F := Ideal) S_ .f32 0x00000000#32) reducesTo_S100000x128_S128_d0 h_S_)
      (broadcastInDim S128 ![] bcast_S_S128 cntOf))
    (broadcastInDim S128 ![] bcast_S_S128 (id (constant (F := Ideal) S_ .f32 0x7FC00000#32)))

/-- Everything after the bias: normalise each column by its mean and its variance (a small constant added under
    the root), scale, shift, and keep the positive part. -/
def tailOf (o : (⟨S100000x128, .f32⟩ : BufTy).Contents (Elt Ideal)) (gamma beta : (⟨S128, .f32⟩ : BufTy).Contents (Elt Ideal)) : (⟨S100000x128, .f32⟩ : BufTy).Contents (Elt Ideal) :=
  maximumf (F := Ideal) (φ := .f32)
    (addf (F := Ideal) (φ := .f32)
      (mulf (F := Ideal) (φ := .f32)
        (mulf (F := Ideal) (φ := .f32) (subf (F := Ideal) (φ := .f32) o (rowBc (meanOf o)))
          (rowBc (Host.rsqrt (F := Ideal) (φ := .f32) (addf (F := Ideal) (φ := .f32) (varOf o)
            (broadcastInDim S128 ![] bcast_S_S128 (constant (F := Ideal) S_ .f32 0x3727C5AC#32))))))
        (rowBc gamma))
      (rowBc beta))
    (broadcastInDim S100000x128 ![] bcast_S_S100000x128 (constant (F := Ideal) S_ .f32 0x00000000#32))

/-- The reference's result of its six arguments: the features projected, aggregated along the edges, the bias
    added, then the tail. -/
def refOut (x : (⟨S100000x128, .f32⟩ : BufTy).Contents (Elt Ideal)) (ei : (⟨S2x1600000, .i32⟩ : BufTy).Contents (Elt Ideal)) (W : (⟨S128x128, .f32⟩ : BufTy).Contents (Elt Ideal)) (b gamma beta : (⟨S128, .f32⟩ : BufTy).Contents (Elt Ideal)) : (⟨S100000x128, .f32⟩ : BufTy).Contents (Elt Ideal) :=
  tailOf (addf (F := Ideal) (φ := .f32) (rawOf (Host.dotGeneral (F := Ideal) (φ₁ := .f32) (φ₂ := .f32) dot_S100000x128_S128x128_S100000x128_1_0_0_1_n_n none x W) ei) (rowBc b)) gamma beta

end Cert.ReferenceIdeal.RefRun

end
-- ==== Proof.RefRunOps.lean ====
import proofs.«172672_j70489003262548_1_alg».proof.Proof.Gen.ReferenceIdeal
import Idealize.ShloMosaic.Lib.StableHlo.Run
import Idealize.ShloMosaic.PureOps.Ideal

/-! The reference program's run.

The reference's @main is a straight line of host operations: the three outlined functions it calls
(the variance, the select inside it, the rectifier) are each a straight line too, so with every call
replaced by the callee's operations over that call's own buffers the whole program is ONE list of
operations. What every buffer holds at the end is then the fold of the operations' results over the
launch contents, and the result buffer's value is a composition of pure functions of the six arguments. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the first sixty are the first window's; then the mean's
    division and the variance's integer argument; the variance's nineteen operations into its call's buffers, the
    select's three (its scalar converted to its own type, broadcast, the select) into the nested call's; the
    seventeen of the normalisation and the affine part; the rectifier's three into its call's buffers. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x3F800000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (maximumf : (⟨S100000, .f32⟩ : BufTy).Contents (Elt F) → (⟨S100000, .f32⟩ : BufTy).Contents (Elt F) → (⟨S100000, .f32⟩ : BufTy).Contents (Elt F)),
    unary main_v12 main_v13 (Host.rsqrt : (⟨S100000, .f32⟩ : BufTy).Contents (Elt F) → (⟨S100000, .f32⟩ : BufTy).Contents (Elt F)),
    nullary main_c (constantI S_ 32 0#32),
    unary main_c main_v14 (broadcastInDim S1700000 ![] bcast_S_S1700000 : (⟨S_, .i32⟩ : BufTy).Contents (Elt F) → (⟨S1700000, .i32⟩ : BufTy).Contents (Elt F)),
    binary main_v3 main_v14 main_v15 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v16 (broadcastInDim S1700000 ![] bcast_S_S1700000 : (⟨S_, .i32⟩ : BufTy).Contents (Elt F) → (⟨S1700000, .i32⟩ : BufTy).Contents (Elt F)),
    binary main_v3 main_v16 main_v17 (addi : (⟨S1700000, .i32⟩ : BufTy).Contents (Elt F) → (⟨S1700000, .i32⟩ : BufTy).Contents (Elt F) → (⟨S1700000, .i32⟩ : BufTy).Contents (Elt F)),
    ternary main_v15 main_v17 main_v3 main_v18 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v18 main_v19 (broadcastInDim S1700000x1 ![0] bcast_S1700000_S1700000x1_0 : (⟨S1700000, .i32⟩ : BufTy).Contents (Elt F) → (⟨S1700000x1, .i32⟩ : BufTy).Contents (Elt F)),
    binary main_v13 main_v19 main_v20 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_3 (constantI S_ 32 0#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (addi : (⟨S1700000, .i32⟩ : BufTy).Contents (Elt F) → (⟨S1700000, .i32⟩ : BufTy).Contents (Elt F) → (⟨S1700000, .i32⟩ : BufTy).Contents (Elt F)),
    ternary main_v22 main_v24 main_v6 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v25 main_v26 (broadcastInDim S1700000x1 ![0] bcast_S1700000_S1700000x1_0 : (⟨S1700000, .i32⟩ : BufTy).Contents (Elt F) → (⟨S1700000x1, .i32⟩ : BufTy).Contents (Elt F)),
    binary main_v13 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v20 main_v27 main_v28 (mulf : (⟨S1700000, .f32⟩ : BufTy).Contents (Elt F) → (⟨S1700000, .f32⟩ : BufTy).Contents (Elt F) → (⟨S1700000, .f32⟩ : BufTy).Contents (Elt F)),
    binary main_arg0 main_arg2 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_5 (constantI S_ 32 0#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (addi : (⟨S1700000, .i32⟩ : BufTy).Contents (Elt F) → (⟨S1700000, .i32⟩ : BufTy).Contents (Elt F) → (⟨S1700000, .i32⟩ : BufTy).Contents (Elt F)),
    ternary main_v31 main_v33 main_v3 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v34 main_v35 (broadcastInDim S1700000x1 ![0] bcast_S1700000_S1700000x1_0 : (⟨S1700000, .i32⟩ : BufTy).Contents (Elt F) → (⟨S1700000x1, .i32⟩ : BufTy).Contents (Elt F)),
    binary main_v29 main_v35 main_v36 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v28 main_v37 (broadcastInDim S1700000x1 ![0] bcast_S1700000_S1700000x1_0 : (⟨S1700000, .f32⟩ : BufTy).Contents (Elt F) → (⟨S1700000x1, .f32⟩ : BufTy).Contents (Elt F)),
    unary main_v37 main_v38 (broadcastInDim S1700000x128 ![0, 1] bcast_S1700000x1_S1700000x128_0_1 : (⟨S1700000x1, .f32⟩ : BufTy).Contents (Elt F) → (⟨S1700000x128, .f32⟩ : BufTy).Contents (Elt F)),
    binary main_v36 main_v38 main_v39 (mulf : (⟨S1700000x128, .f32⟩ : BufTy).Contents (Elt F) → (⟨S1700000x128, .f32⟩ : BufTy).Contents (Elt F) → (⟨S1700000x128, .f32⟩ : BufTy).Contents (Elt F)),
    nullary main_cst_7 (constant S_ .f32 0x00000000#32),
    unary main_cst_7 main_v40 (broadcastInDim S100000x128 ![] bcast_S_S100000x128 : (⟨S_, .f32⟩ : BufTy).Contents (Elt F) → (⟨S100000x128, .f32⟩ : BufTy).Contents (Elt F)),
    unary main_v6 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v45 main_cst_8 main_v46 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v47 (broadcastInDim S128 ![] bcast_S_S128 : (⟨S_, .f32⟩ : BufTy).Contents (Elt F) → (⟨S128, .f32⟩ : BufTy).Contents (Elt F)),
    binary main_v46 main_v47 main_v48 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary main_call0.cst (constant S_ .f32 0x00000000#32),
    TRef.binary (.of main_v45 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v45 : TRef sig ⟨S100000x128, .f32⟩) main_call0.v4 main_call0.v5 subf,
    TRef.binary main_call0.v5 main_call0.v5 main_call0.v6 mulf,
    TRef.unary (.of main_c_10 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v48 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v45 main_v51 main_v52 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v53 (broadcastInDim S128 ![] bcast_S_S128 : (⟨S_, .f32⟩ : BufTy).Contents (Elt F) → (⟨S128, .f32⟩ : BufTy).Contents (Elt F)),
    binary main_v49 main_v53 main_v54 (addf : (⟨S128, .f32⟩ : BufTy).Contents (Elt F) → (⟨S128, .f32⟩ : BufTy).Contents (Elt F) → (⟨S128, .f32⟩ : BufTy).Contents (Elt F)),
    unary main_v54 main_v55 (Host.rsqrt : (⟨S128, .f32⟩ : BufTy).Contents (Elt F) → (⟨S128, .f32⟩ : BufTy).Contents (Elt F)),
    unary main_v55 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v52 main_v57 main_v58 (mulf : (⟨S100000x128, .f32⟩ : BufTy).Contents (Elt F) → (⟨S100000x128, .f32⟩ : BufTy).Contents (Elt F) → (⟨S100000x128, .f32⟩ : BufTy).Contents (Elt F)),
    unary main_arg4 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v58 main_v60 main_v61 (mulf : (⟨S100000x128, .f32⟩ : BufTy).Contents (Elt F) → (⟨S100000x128, .f32⟩ : BufTy).Contents (Elt F) → (⟨S100000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v64 : TRef sig ⟨S100000x128, .f32⟩) main_call1.v0 main_call1.v1 maximumf ]

-- one hundred and three binds re-associated: the rewrite under the chain recurses once per statement
set_option maxRecDepth 8192 in
set_option maxHeartbeats 4000000 in
/-- @main is that straight line: the two windows and the functions' definitions unfolded at their calls and the
    records at their fields, both sides are one chain of steps once sequencing is reassociated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩

/-- The fold of a concatenation is the second list's fold after the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- On every device, for any float values, from any memory with zero counters: every weakly fair execution of
    @main terminates, and every buffer ends at the fold of the operations' results over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after (ops (F := F)) (launchContents m c) (b : DevRef τ sig) :=
  run_seq scopedRefs_eq scopedSems_eq defs main (fun _ => ops) main_eq (fun _ => ops_sub) m ρ

end Cert.ReferenceIdeal.RefRun

end
-- ==== Proof.RefRun.lean ====
import proofs.«172672_j70489003262548_1_alg».proof.Proof.RefStages
import proofs.«172672_j70489003262548_1_alg».proof.Proof.RefRunOps

/-! The reference's run read back as the stages' composition.

The operation list's fold at the result buffer is `refOut` of the six arguments' launch contents, and no
operation writes an argument's buffer; with the list's run this is the reference's whole behaviour: it
terminates with its result at `refOut` and its arguments unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ### The list in seven consecutive pieces

The list is cut where a named intermediate is complete; each piece is read on its own from ANY contents, and
the pieces are chained (the fold of a concatenation is the folds composed). -/

/-- Operations 1 … 7. The edge list's two rows, each extended by the self-loops. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Operations 8 … 17. The nodes' weights from the destinations. -/
abbrev opsB : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x3F800000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (maximumf : (⟨S100000, .f32⟩ : BufTy).Contents (Elt F) → (⟨S100000, .f32⟩ : BufTy).Contents (Elt F) → (⟨S100000, .f32⟩ : BufTy).Contents (Elt F)),
    unary main_v12 main_v13 (Host.rsqrt : (⟨S100000, .f32⟩ : BufTy).Contents (Elt F) → (⟨S100000, .f32⟩ : BufTy).Contents (Elt F)) ]

/-- Operations 18 … 36. The edges' coefficients: both index columns, both gathers of the weights, their product. -/
abbrev opsC : List (HloOp τ sig (Elt F)) :=
  [ nullary main_c (constantI S_ 32 0#32),
    unary main_c main_v14 (broadcastInDim S1700000 ![] bcast_S_S1700000 : (⟨S_, .i32⟩ : BufTy).Contents (Elt F) → (⟨S1700000, .i32⟩ : BufTy).Contents (Elt F)),
    binary main_v3 main_v14 main_v15 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v16 (broadcastInDim S1700000 ![] bcast_S_S1700000 : (⟨S_, .i32⟩ : BufTy).Contents (Elt F) → (⟨S1700000, .i32⟩ : BufTy).Contents (Elt F)),
    binary main_v3 main_v16 main_v17 (addi : (⟨S1700000, .i32⟩ : BufTy).Contents (Elt F) → (⟨S1700000, .i32⟩ : BufTy).Contents (Elt F) → (⟨S1700000, .i32⟩ : BufTy).Contents (Elt F)),
    ternary main_v15 main_v17 main_v3 main_v18 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v18 main_v19 (broadcastInDim S1700000x1 ![0] bcast_S1700000_S1700000x1_0 : (⟨S1700000, .i32⟩ : BufTy).Contents (Elt F) → (⟨S1700000x1, .i32⟩ : BufTy).Contents (Elt F)),
    binary main_v13 main_v19 main_v20 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_3 (constantI S_ 32 0#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (addi : (⟨S1700000, .i32⟩ : BufTy).Contents (Elt F) → (⟨S1700000, .i32⟩ : BufTy).Contents (Elt F) → (⟨S1700000, .i32⟩ : BufTy).Contents (Elt F)),
    ternary main_v22 main_v24 main_v6 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v25 main_v26 (broadcastInDim S1700000x1 ![0] bcast_S1700000_S1700000x1_0 : (⟨S1700000, .i32⟩ : BufTy).Contents (Elt F) → (⟨S1700000x1, .i32⟩ : BufTy).Contents (Elt F)),
    binary main_v13 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v20 main_v27 main_v28 (mulf : (⟨S1700000, .f32⟩ : BufTy).Contents (Elt F) → (⟨S1700000, .f32⟩ : BufTy).Contents (Elt F) → (⟨S1700000, .f32⟩ : BufTy).Contents (Elt F)) ]

/-- Operations 37 … 53. The projection, the rows gathered along the sources and scaled, and their sum at the destinations. -/
abbrev opsE : List (HloOp τ sig (Elt F)) :=
  [ binary main_arg0 main_arg2 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_5 (constantI S_ 32 0#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (addi : (⟨S1700000, .i32⟩ : BufTy).Contents (Elt F) → (⟨S1700000, .i32⟩ : BufTy).Contents (Elt F) → (⟨S1700000, .i32⟩ : BufTy).Contents (Elt F)),
    ternary main_v31 main_v33 main_v3 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v34 main_v35 (broadcastInDim S1700000x1 ![0] bcast_S1700000_S1700000x1_0 : (⟨S1700000, .i32⟩ : BufTy).Contents (Elt F) → (⟨S1700000x1, .i32⟩ : BufTy).Contents (Elt F)),
    binary main_v29 main_v35 main_v36 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v28 main_v37 (broadcastInDim S1700000x1 ![0] bcast_S1700000_S1700000x1_0 : (⟨S1700000, .f32⟩ : BufTy).Contents (Elt F) → (⟨S1700000x1, .f32⟩ : BufTy).Contents (Elt F)),
    unary main_v37 main_v38 (broadcastInDim S1700000x128 ![0, 1] bcast_S1700000x1_S1700000x128_0_1 : (⟨S1700000x1, .f32⟩ : BufTy).Contents (Elt F) → (⟨S1700000x128, .f32⟩ : BufTy).Contents (Elt F)),
    binary main_v36 main_v38 main_v39 (mulf : (⟨S1700000x128, .f32⟩ : BufTy).Contents (Elt F) → (⟨S1700000x128, .f32⟩ : BufTy).Contents (Elt F) → (⟨S1700000x128, .f32⟩ : BufTy).Contents (Elt F)),
    nullary main_cst_7 (constant S_ .f32 0x00000000#32),
    unary main_cst_7 main_v40 (broadcastInDim S100000x128 ![] bcast_S_S100000x128 : (⟨S_, .f32⟩ : BufTy).Contents (Elt F) → (⟨S100000x128, .f32⟩ : BufTy).Contents (Elt F)),
    unary main_v6 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Operations 54 … 56. The bias, one row repeated, added. -/
abbrev opsFc : List (HloOp τ sig (Elt F)) :=
  [ unary main_arg3 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)) ]

/-- Operations 57 … 84. The column means, and the variance function's body with the select's inside it. -/
abbrev opsG : List (HloOp τ sig (Elt F)) :=
  [ nullary main_cst_8 (constant S_ .f32 0x00000000#32),
    binary main_v45 main_cst_8 main_v46 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v47 (broadcastInDim S128 ![] bcast_S_S128 : (⟨S_, .f32⟩ : BufTy).Contents (Elt F) → (⟨S128, .f32⟩ : BufTy).Contents (Elt F)),
    binary main_v46 main_v47 main_v48 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary main_call0.cst (constant S_ .f32 0x00000000#32),
    TRef.binary (.of main_v45 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v45 : TRef sig ⟨S100000x128, .f32⟩) main_call0.v4 main_call0.v5 subf,
    TRef.binary main_call0.v5 main_call0.v5 main_call0.v6 mulf,
    TRef.unary (.of main_c_10 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- Operations 85 … 103. The normalisation, the affine part and the rectifier's body. -/
abbrev opsH : List (HloOp τ sig (Elt F)) :=
  [ unary main_v48 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v45 main_v51 main_v52 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v53 (broadcastInDim S128 ![] bcast_S_S128 : (⟨S_, .f32⟩ : BufTy).Contents (Elt F) → (⟨S128, .f32⟩ : BufTy).Contents (Elt F)),
    binary main_v49 main_v53 main_v54 (addf : (⟨S128, .f32⟩ : BufTy).Contents (Elt F) → (⟨S128, .f32⟩ : BufTy).Contents (Elt F) → (⟨S128, .f32⟩ : BufTy).Contents (Elt F)),
    unary main_v54 main_v55 (Host.rsqrt : (⟨S128, .f32⟩ : BufTy).Contents (Elt F) → (⟨S128, .f32⟩ : BufTy).Contents (Elt F)),
    unary main_v55 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v52 main_v57 main_v58 (mulf : (⟨S100000x128, .f32⟩ : BufTy).Contents (Elt F) → (⟨S100000x128, .f32⟩ : BufTy).Contents (Elt F) → (⟨S100000x128, .f32⟩ : BufTy).Contents (Elt F)),
    unary main_arg4 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v58 main_v60 main_v61 (mulf : (⟨S100000x128, .f32⟩ : BufTy).Contents (Elt F) → (⟨S100000x128, .f32⟩ : BufTy).Contents (Elt F) → (⟨S100000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v64 : TRef sig ⟨S100000x128, .f32⟩) main_call1.v0 main_call1.v1 maximumf ]

/-- The list is its pieces in order. -/
theorem ops_split : (ops (F := F)) = opsA ++ (opsB ++ (opsC ++ (opsE ++ (opsFc ++ (opsG ++ opsH))))) := rfl

/-! ### Each piece read from any contents

A value lemma takes what the piece's inputs hold as hypotheses and gives what its outputs hold, by unrolling
the piece and opening the stages' names (the sums, gathers and shape operations stay folded: the equations never
look inside them). A frame lemma says a buffer the piece does not write keeps its contents. -/

attribute [local irreducible] Host.reduceAdd Host.scatterAdd Host.gather concatenate broadcastInDim shapeCast
  extractStridedSlice iotaInDim in
set_option maxRecDepth 16384 in
set_option maxHeartbeats 1000000 in
theorem A_v3 (W : Valuation τ sig (Elt Ideal)) :
    after (opsA (F := Ideal)) W (main_v3 : DevRef τ sig) = srcOf (W (main_arg1 : DevRef τ sig)) := by
  after_results_simp
  rfl

attribute [local irreducible] Host.reduceAdd Host.scatterAdd Host.gather concatenate broadcastInDim shapeCast
  extractStridedSlice iotaInDim in
set_option maxRecDepth 16384 in
set_option maxHeartbeats 1000000 in
theorem A_v6 (W : Valuation τ sig (Elt Ideal)) :
    after (opsA (F := Ideal)) W (main_v6 : DevRef τ sig) = dstOf (W (main_arg1 : DevRef τ sig)) := by
  after_results_simp
  rfl

attribute [local irreducible] Host.reduceAdd Host.scatterAdd Host.gather concatenate broadcastInDim shapeCast
  extractStridedSlice iotaInDim in
set_option maxRecDepth 16384 in
set_option maxHeartbeats 1000000 in
theorem B_v13 (W : Valuation τ sig (Elt Ideal)) (ei : (⟨S2x1600000, .i32⟩ : BufTy).Contents (Elt Ideal))
    (h6 : W (main_v6 : DevRef τ sig) = dstOf ei) :
    after (opsB (F := Ideal)) W (main_v13 : DevRef τ sig) = disOf ei := by
  after_results_simp
  rw [h6]
  rfl

attribute [local irreducible] Host.reduceAdd Host.scatterAdd Host.gather concatenate broadcastInDim shapeCast
  extractStridedSlice iotaInDim in
set_option maxRecDepth 16384 in
set_option maxHeartbeats 1000000 in
theorem C_v28 (W : Valuation τ sig (Elt Ideal)) (ei : (⟨S2x1600000, .i32⟩ : BufTy).Contents (Elt Ideal))
    (h3 : W (main_v3 : DevRef τ sig) = srcOf ei) (h6 : W (main_v6 : DevRef τ sig) = dstOf ei) (h13 : W (main_v13 : DevRef τ sig) = disOf ei) :
    after (opsC (F := Ideal)) W (main_v28 : DevRef τ sig) = normOf ei := by
  after_results_simp
  rw [h3, h6, h13]
  rfl

attribute [local irreducible] Host.reduceAdd Host.scatterAdd Host.gather concatenate broadcastInDim shapeCast
  extractStridedSlice iotaInDim in
set_option maxRecDepth 16384 in
set_option maxHeartbeats 1000000 in
theorem E_v42 (W : Valuation τ sig (Elt Ideal)) (ei : (⟨S2x1600000, .i32⟩ : BufTy).Contents (Elt Ideal))
    (h3 : W (main_v3 : DevRef τ sig) = srcOf ei) (h6 : W (main_v6 : DevRef τ sig) = dstOf ei) (h28 : W (main_v28 : DevRef τ sig) = normOf ei) :
    after (opsE (F := Ideal)) W (main_v42 : DevRef τ sig)
      = rawOf (Host.dotGeneral (F := Ideal) (φ₁ := .f32) (φ₂ := .f32) dot_S100000x128_S128x128_S100000x128_1_0_0_1_n_n none
          (W (main_arg0 : DevRef τ sig)) (W (main_arg2 : DevRef τ sig))) ei := by
  after_results_simp
  rw [h3, h6, h28]
  rfl

attribute [local irreducible] Host.reduceAdd Host.scatterAdd Host.gather concatenate broadcastInDim shapeCast
  extractStridedSlice iotaInDim in
set_option maxRecDepth 16384 in
set_option maxHeartbeats 1000000 in
theorem Fc_v45 (W : Valuation τ sig (Elt Ideal)) :
    after (opsFc (F := Ideal)) W (main_v45 : DevRef τ sig)
      = addf (F := Ideal) (φ := .f32) (W (main_v42 : DevRef τ sig)) (rowBc (W (main_arg3 : DevRef τ sig))) := by
  after_results_simp
  rfl

attribute [local irreducible] Host.reduceAdd Host.scatterAdd Host.gather concatenate broadcastInDim shapeCast
  extractStridedSlice iotaInDim in
set_option maxRecDepth 16384 in
set_option maxHeartbeats 1000000 in
theorem G_v48 (W : Valuation τ sig (Elt Ideal)) :
    after (opsG (F := Ideal)) W (main_v48 : DevRef τ sig) = meanOf (W (main_v45 : DevRef τ sig)) := by
  after_results_simp
  rfl

attribute [local irreducible] Host.reduceAdd Host.scatterAdd Host.gather concatenate broadcastInDim shapeCast
  extractStridedSlice iotaInDim in
set_option maxRecDepth 16384 in
set_option maxHeartbeats 1000000 in
theorem G_v49 (W : Valuation τ sig (Elt Ideal)) :
    after (opsG (F := Ideal)) W (main_v49 : DevRef τ sig) = varOf (W (main_v45 : DevRef τ sig)) := by
  after_results_simp
  rfl

attribute [local irreducible] Host.reduceAdd Host.scatterAdd Host.gather concatenate broadcastInDim shapeCast
  extractStridedSlice iotaInDim in
set_option maxRecDepth 16384 in
set_option maxHeartbeats 1000000 in
theorem H_v65 (W : Valuation τ sig (Elt Ideal)) (o : (⟨S100000x128, .f32⟩ : BufTy).Contents (Elt Ideal))
    (h45 : W (main_v45 : DevRef τ sig) = o) (h48 : W (main_v48 : DevRef τ sig) = meanOf o) (h49 : W (main_v49 : DevRef τ sig) = varOf o) :
    after (opsH (F := Ideal)) W (main_v65 : DevRef τ sig) = tailOf o (W (main_arg4 : DevRef τ sig)) (W (main_arg5 : DevRef τ sig)) := by
  after_results_simp
  rw [h45, h48, h49]
  rfl

set_option maxRecDepth 16384 in
set_option maxHeartbeats 1000000 in
theorem A_arg0 (W : Valuation τ sig (Elt Ideal)) :
    after (opsA (F := Ideal)) W (main_arg0 : DevRef τ sig) = W (main_arg0 : DevRef τ sig) := by
  after_results_simp

set_option maxRecDepth 16384 in
set_option maxHeartbeats 1000000 in
theorem A_arg1 (W : Valuation τ sig (Elt Ideal)) :
    after (opsA (F := Ideal)) W (main_arg1 : DevRef τ sig) = W (main_arg1 : DevRef τ sig) := by
  after_results_simp

set_option maxRecDepth 16384 in
set_option maxHeartbeats 1000000 in
theorem A_arg2 (W : Valuation τ sig (Elt Ideal)) :
    after (opsA (F := Ideal)) W (main_arg2 : DevRef τ sig) = W (main_arg2 : DevRef τ sig) := by
  after_results_simp

set_option maxRecDepth 16384 in
set_option maxHeartbeats 1000000 in
theorem A_arg3 (W : Valuation τ sig (Elt Ideal)) :
    after (opsA (F := Ideal)) W (main_arg3 : DevRef τ sig) = W (main_arg3 : DevRef τ sig) := by
  after_results_simp

set_option maxRecDepth 16384 in
set_option maxHeartbeats 1000000 in
theorem A_arg4 (W : Valuation τ sig (Elt Ideal)) :
    after (opsA (F := Ideal)) W (main_arg4 : DevRef τ sig) = W (main_arg4 : DevRef τ sig) := by
  after_results_simp

set_option maxRecDepth 16384 in
set_option maxHeartbeats 1000000 in
theorem A_arg5 (W : Valuation τ sig (Elt Ideal)) :
    after (opsA (F := Ideal)) W (main_arg5 : DevRef τ sig) = W (main_arg5 : DevRef τ sig) := by
  after_results_simp

set_option maxRecDepth 16384 in
set_option maxHeartbeats 1000000 in
theorem B_v3 (W : Valuation τ sig (Elt Ideal)) :
    after (opsB (F := Ideal)) W (main_v3 : DevRef τ sig) = W (main_v3 : DevRef τ sig) := by
  after_results_simp

set_option maxRecDepth 16384 in
set_option maxHeartbeats 1000000 in
theorem B_v6 (W : Valuation τ sig (Elt Ideal)) :
    after (opsB (F := Ideal)) W (main_v6 : DevRef τ sig) = W (main_v6 : DevRef τ sig) := by
  after_results_simp

set_option maxRecDepth 16384 in
set_option maxHeartbeats 1000000 in
theorem B_arg0 (W : Valuation τ sig (Elt Ideal)) :
    after (opsB (F := Ideal)) W (main_arg0 : DevRef τ sig) = W (main_arg0 : DevRef τ sig) := by
  after_results_simp

set_option maxRecDepth 16384 in
set_option maxHeartbeats 1000000 in
theorem B_arg1 (W : Valuation τ sig (Elt Ideal)) :
    after (opsB (F := Ideal)) W (main_arg1 : DevRef τ sig) = W (main_arg1 : DevRef τ sig) := by
  after_results_simp

set_option maxRecDepth 16384 in
set_option maxHeartbeats 1000000 in
theorem B_arg2 (W : Valuation τ sig (Elt Ideal)) :
    after (opsB (F := Ideal)) W (main_arg2 : DevRef τ sig) = W (main_arg2 : DevRef τ sig) := by
  after_results_simp

set_option maxRecDepth 16384 in
set_option maxHeartbeats 1000000 in
theorem B_arg3 (W : Valuation τ sig (Elt Ideal)) :
    after (opsB (F := Ideal)) W (main_arg3 : DevRef τ sig) = W (main_arg3 : DevRef τ sig) := by
  after_results_simp

set_option maxRecDepth 16384 in
set_option maxHeartbeats 1000000 in
theorem B_arg4 (W : Valuation τ sig (Elt Ideal)) :
    after (opsB (F := Ideal)) W (main_arg4 : DevRef τ sig) = W (main_arg4 : DevRef τ sig) := by
  after_results_simp

set_option maxRecDepth 16384 in
set_option maxHeartbeats 1000000 in
theorem B_arg5 (W : Valuation τ sig (Elt Ideal)) :
    after (opsB (F := Ideal)) W (main_arg5 : DevRef τ sig) = W (main_arg5 : DevRef τ sig) := by
  after_results_simp

set_option maxRecDepth 16384 in
set_option maxHeartbeats 1000000 in
theorem C_v3 (W : Valuation τ sig (Elt Ideal)) :
    after (opsC (F := Ideal)) W (main_v3 : DevRef τ sig) = W (main_v3 : DevRef τ sig) := by
  after_results_simp

set_option maxRecDepth 16384 in
set_option maxHeartbeats 1000000 in
theorem C_v6 (W : Valuation τ sig (Elt Ideal)) :
    after (opsC (F := Ideal)) W (main_v6 : DevRef τ sig) = W (main_v6 : DevRef τ sig) := by
  after_results_simp

set_option maxRecDepth 16384 in
set_option maxHeartbeats 1000000 in
theorem C_arg0 (W : Valuation τ sig (Elt Ideal)) :
    after (opsC (F := Ideal)) W (main_arg0 : DevRef τ sig) = W (main_arg0 : DevRef τ sig) := by
  after_results_simp

set_option maxRecDepth 16384 in
set_option maxHeartbeats 1000000 in
theorem C_arg1 (W : Valuation τ sig (Elt Ideal)) :
    after (opsC (F := Ideal)) W (main_arg1 : DevRef τ sig) = W (main_arg1 : DevRef τ sig) := by
  after_results_simp

set_option maxRecDepth 16384 in
set_option maxHeartbeats 1000000 in
theorem C_arg2 (W : Valuation τ sig (Elt Ideal)) :
    after (opsC (F := Ideal)) W (main_arg2 : DevRef τ sig) = W (main_arg2 : DevRef τ sig) := by
  after_results_simp

set_option maxRecDepth 16384 in
set_option maxHeartbeats 1000000 in
theorem C_arg3 (W : Valuation τ sig (Elt Ideal)) :
    after (opsC (F := Ideal)) W (main_arg3 : DevRef τ sig) = W (main_arg3 : DevRef τ sig) := by
  after_results_simp

set_option maxRecDepth 16384 in
set_option maxHeartbeats 1000000 in
theorem C_arg4 (W : Valuation τ sig (Elt Ideal)) :
    after (opsC (F := Ideal)) W (main_arg4 : DevRef τ sig) = W (main_arg4 : DevRef τ sig) := by
  after_results_simp

set_option maxRecDepth 16384 in
set_option maxHeartbeats 1000000 in
theorem C_arg5 (W : Valuation τ sig (Elt Ideal)) :
    after (opsC (F := Ideal)) W (main_arg5 : DevRef τ sig) = W (main_arg5 : DevRef τ sig) := by
  after_results_simp

set_option maxRecDepth 16384 in
set_option maxHeartbeats 1000000 in
theorem E_arg0 (W : Valuation τ sig (Elt Ideal)) :
    after (opsE (F := Ideal)) W (main_arg0 : DevRef τ sig) = W (main_arg0 : DevRef τ sig) := by
  after_results_simp

set_option maxRecDepth 16384 in
set_option maxHeartbeats 1000000 in
theorem E_arg1 (W : Valuation τ sig (Elt Ideal)) :
    after (opsE (F := Ideal)) W (main_arg1 : DevRef τ sig) = W (main_arg1 : DevRef τ sig) := by
  after_results_simp

set_option maxRecDepth 16384 in
set_option maxHeartbeats 1000000 in
theorem E_arg2 (W : Valuation τ sig (Elt Ideal)) :
    after (opsE (F := Ideal)) W (main_arg2 : DevRef τ sig) = W (main_arg2 : DevRef τ sig) := by
  after_results_simp

set_option maxRecDepth 16384 in
set_option maxHeartbeats 1000000 in
theorem E_arg3 (W : Valuation τ sig (Elt Ideal)) :
    after (opsE (F := Ideal)) W (main_arg3 : DevRef τ sig) = W (main_arg3 : DevRef τ sig) := by
  after_results_simp

set_option maxRecDepth 16384 in
set_option maxHeartbeats 1000000 in
theorem E_arg4 (W : Valuation τ sig (Elt Ideal)) :
    after (opsE (F := Ideal)) W (main_arg4 : DevRef τ sig) = W (main_arg4 : DevRef τ sig) := by
  after_results_simp

set_option maxRecDepth 16384 in
set_option maxHeartbeats 1000000 in
theorem E_arg5 (W : Valuation τ sig (Elt Ideal)) :
    after (opsE (F := Ideal)) W (main_arg5 : DevRef τ sig) = W (main_arg5 : DevRef τ sig) := by
  after_results_simp

set_option maxRecDepth 16384 in
set_option maxHeartbeats 1000000 in
theorem Fc_arg0 (W : Valuation τ sig (Elt Ideal)) :
    after (opsFc (F := Ideal)) W (main_arg0 : DevRef τ sig) = W (main_arg0 : DevRef τ sig) := by
  after_results_simp

set_option maxRecDepth 16384 in
set_option maxHeartbeats 1000000 in
theorem Fc_arg1 (W : Valuation τ sig (Elt Ideal)) :
    after (opsFc (F := Ideal)) W (main_arg1 : DevRef τ sig) = W (main_arg1 : DevRef τ sig) := by
  after_results_simp

set_option maxRecDepth 16384 in
set_option maxHeartbeats 1000000 in
theorem Fc_arg2 (W : Valuation τ sig (Elt Ideal)) :
    after (opsFc (F := Ideal)) W (main_arg2 : DevRef τ sig) = W (main_arg2 : DevRef τ sig) := by
  after_results_simp

set_option maxRecDepth 16384 in
set_option maxHeartbeats 1000000 in
theorem Fc_arg3 (W : Valuation τ sig (Elt Ideal)) :
    after (opsFc (F := Ideal)) W (main_arg3 : DevRef τ sig) = W (main_arg3 : DevRef τ sig) := by
  after_results_simp

set_option maxRecDepth 16384 in
set_option maxHeartbeats 1000000 in
theorem Fc_arg4 (W : Valuation τ sig (Elt Ideal)) :
    after (opsFc (F := Ideal)) W (main_arg4 : DevRef τ sig) = W (main_arg4 : DevRef τ sig) := by
  after_results_simp

set_option maxRecDepth 16384 in
set_option maxHeartbeats 1000000 in
theorem Fc_arg5 (W : Valuation τ sig (Elt Ideal)) :
    after (opsFc (F := Ideal)) W (main_arg5 : DevRef τ sig) = W (main_arg5 : DevRef τ sig) := by
  after_results_simp

set_option maxRecDepth 16384 in
set_option maxHeartbeats 1000000 in
theorem G_v45 (W : Valuation τ sig (Elt Ideal)) :
    after (opsG (F := Ideal)) W (main_v45 : DevRef τ sig) = W (main_v45 : DevRef τ sig) := by
  after_results_simp

set_option maxRecDepth 16384 in
set_option maxHeartbeats 1000000 in
theorem G_arg0 (W : Valuation τ sig (Elt Ideal)) :
    after (opsG (F := Ideal)) W (main_arg0 : DevRef τ sig) = W (main_arg0 : DevRef τ sig) := by
  after_results_simp

set_option maxRecDepth 16384 in
set_option maxHeartbeats 1000000 in
theorem G_arg1 (W : Valuation τ sig (Elt Ideal)) :
    after (opsG (F := Ideal)) W (main_arg1 : DevRef τ sig) = W (main_arg1 : DevRef τ sig) := by
  after_results_simp

set_option maxRecDepth 16384 in
set_option maxHeartbeats 1000000 in
theorem G_arg2 (W : Valuation τ sig (Elt Ideal)) :
    after (opsG (F := Ideal)) W (main_arg2 : DevRef τ sig) = W (main_arg2 : DevRef τ sig) := by
  after_results_simp

set_option maxRecDepth 16384 in
set_option maxHeartbeats 1000000 in
theorem G_arg3 (W : Valuation τ sig (Elt Ideal)) :
    after (opsG (F := Ideal)) W (main_arg3 : DevRef τ sig) = W (main_arg3 : DevRef τ sig) := by
  after_results_simp

set_option maxRecDepth 16384 in
set_option maxHeartbeats 1000000 in
theorem G_arg4 (W : Valuation τ sig (Elt Ideal)) :
    after (opsG (F := Ideal)) W (main_arg4 : DevRef τ sig) = W (main_arg4 : DevRef τ sig) := by
  after_results_simp

set_option maxRecDepth 16384 in
set_option maxHeartbeats 1000000 in
theorem G_arg5 (W : Valuation τ sig (Elt Ideal)) :
    after (opsG (F := Ideal)) W (main_arg5 : DevRef τ sig) = W (main_arg5 : DevRef τ sig) := by
  after_results_simp

set_option maxRecDepth 16384 in
set_option maxHeartbeats 1000000 in
theorem H_arg0 (W : Valuation τ sig (Elt Ideal)) :
    after (opsH (F := Ideal)) W (main_arg0 : DevRef τ sig) = W (main_arg0 : DevRef τ sig) := by
  after_results_simp

set_option maxRecDepth 16384 in
set_option maxHeartbeats 1000000 in
theorem H_arg1 (W : Valuation τ sig (Elt Ideal)) :
    after (opsH (F := Ideal)) W (main_arg1 : DevRef τ sig) = W (main_arg1 : DevRef τ sig) := by
  after_results_simp

set_option maxRecDepth 16384 in
set_option maxHeartbeats 1000000 in
theorem H_arg2 (W : Valuation τ sig (Elt Ideal)) :
    after (opsH (F := Ideal)) W (main_arg2 : DevRef τ sig) = W (main_arg2 : DevRef τ sig) := by
  after_results_simp

set_option maxRecDepth 16384 in
set_option maxHeartbeats 1000000 in
theorem H_arg3 (W : Valuation τ sig (Elt Ideal)) :
    after (opsH (F := Ideal)) W (main_arg3 : DevRef τ sig) = W (main_arg3 : DevRef τ sig) := by
  after_results_simp

set_option maxRecDepth 16384 in
set_option maxHeartbeats 1000000 in
theorem H_arg4 (W : Valuation τ sig (Elt Ideal)) :
    after (opsH (F := Ideal)) W (main_arg4 : DevRef τ sig) = W (main_arg4 : DevRef τ sig) := by
  after_results_simp

set_option maxRecDepth 16384 in
set_option maxHeartbeats 1000000 in
theorem H_arg5 (W : Valuation τ sig (Elt Ideal)) :
    after (opsH (F := Ideal)) W (main_arg5 : DevRef τ sig) = W (main_arg5 : DevRef τ sig) := by
  after_results_simp

/-! ### The pieces chained -/

set_option maxRecDepth 16384 in
set_option maxHeartbeats 1000000 in
/-- The fold of the whole list at the result buffer is `refOut` of the arguments' contents: each piece's value
    lemma fed with the previous pieces' (through the frame lemmas where a buffer is read several pieces later). -/
theorem out_eq (V : Valuation τ sig (Elt Ideal)) :
    after (ops (F := Ideal)) V (main_v65 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_split, after_append, after_append, after_append, after_append, after_append, after_append]
  have a3 := A_v3 V
  have a6 := A_v6 V
  have b13 := B_v13 _ (V (main_arg1 : DevRef τ sig)) a6
  have c28 := C_v28 _ (V (main_arg1 : DevRef τ sig)) ((B_v3 _).trans a3) ((B_v6 _).trans a6) b13
  have e42 := E_v42 _ (V (main_arg1 : DevRef τ sig)) ((C_v3 _).trans ((B_v3 _).trans a3)) ((C_v6 _).trans ((B_v6 _).trans a6)) c28
  rw [C_arg0, B_arg0, A_arg0, C_arg2, B_arg2, A_arg2] at e42
  have f45 := Fc_v45 (after (opsE (F := Ideal)) (after (opsC (F := Ideal)) (after (opsB (F := Ideal)) (after (opsA (F := Ideal)) V))))
  rw [e42, E_arg3, C_arg3, B_arg3, A_arg3] at f45
  rw [H_v65 _ _ ((G_v45 _).trans f45) ((G_v48 _).trans (congrArg meanOf f45)) ((G_v49 _).trans (congrArg varOf f45)),
    G_arg4, Fc_arg4, E_arg4, C_arg4, B_arg4, A_arg4, G_arg5, Fc_arg5, E_arg5, C_arg5, B_arg5, A_arg5]
  rfl

/-- No operation writes argument 0's buffer. -/
theorem arg0_eq (V : Valuation τ sig (Elt Ideal)) :
    after (ops (F := Ideal)) V (main_arg0 : DevRef τ sig) = V (main_arg0 : DevRef τ sig) := by
  rw [ops_split, after_append, after_append, after_append, after_append, after_append, after_append,
    H_arg0, G_arg0, Fc_arg0, E_arg0, C_arg0, B_arg0, A_arg0]

/-- No operation writes argument 1's buffer. -/
theorem arg1_eq (V : Valuation τ sig (Elt Ideal)) :
    after (ops (F := Ideal)) V (main_arg1 : DevRef τ sig) = V (main_arg1 : DevRef τ sig) := by
  rw [ops_split, after_append, after_append, after_append, after_append, after_append, after_append,
    H_arg1, G_arg1, Fc_arg1, E_arg1, C_arg1, B_arg1, A_arg1]

/-- No operation writes argument 2's buffer. -/
theorem arg2_eq (V : Valuation τ sig (Elt Ideal)) :
    after (ops (F := Ideal)) V (main_arg2 : DevRef τ sig) = V (main_arg2 : DevRef τ sig) := by
  rw [ops_split, after_append, after_append, after_append, after_append, after_append, after_append,
    H_arg2, G_arg2, Fc_arg2, E_arg2, C_arg2, B_arg2, A_arg2]

/-- No operation writes argument 3's buffer. -/
theorem arg3_eq (V : Valuation τ sig (Elt Ideal)) :
    after (ops (F := Ideal)) V (main_arg3 : DevRef τ sig) = V (main_arg3 : DevRef τ sig) := by
  rw [ops_split, after_append, after_append, after_append, after_append, after_append, after_append,
    H_arg3, G_arg3, Fc_arg3, E_arg3, C_arg3, B_arg3, A_arg3]

/-- No operation writes argument 4's buffer. -/
theorem arg4_eq (V : Valuation τ sig (Elt Ideal)) :
    after (ops (F := Ideal)) V (main_arg4 : DevRef τ sig) = V (main_arg4 : DevRef τ sig) := by
  rw [ops_split, after_append, after_append, after_append, after_append, after_append, after_append,
    H_arg4, G_arg4, Fc_arg4, E_arg4, C_arg4, B_arg4, A_arg4]

/-- No operation writes argument 5's buffer. -/
theorem arg5_eq (V : Valuation τ sig (Elt Ideal)) :
    after (ops (F := Ideal)) V (main_arg5 : DevRef τ sig) = V (main_arg5 : DevRef τ sig) := by
  rw [ops_split, after_append, after_append, after_append, after_append, after_append, after_append,
    H_arg5, G_arg5, Fc_arg5, E_arg5, C_arg5, B_arg5, A_arg5]

/-- On every device, from any memory with zero counters: every weakly fair execution of @main terminates with the
    result buffer at `refOut` of the six arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v65) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v65).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_fold m ρ)

end Cert.ReferenceIdeal.RefRun

end
-- ==== Proof.LibPlainDot.lean ====
/-
  A PLAIN MATRIX PRODUCT'S CONTRACTION AS A SUM OVER ITS INNER EXTENT.

  For dimension numbers of a product of an [M, K] matrix with a [K, N] matrix into [M, N] — one contracted axis, the
  left operand's second against the right operand's first, no batch axis — the contraction ranges over a rank-one
  index type of extent K. Whenever the record's operand indices at result entry (r, c) and contraction position k are
  (r, k) and (k, c) (four coordinate equations, each `rfl` for a record with literal axis lists), the contraction
      ∑ k, lhs (lhsIdx (r, c) k) * rhs (rhsIdx (r, c) k)
  is ∑ k : Fin K, lhs (r, k) * rhs (k, c). Both a vector unit's product into a zero accumulator and a host
  dot_general read as that contraction at the exact instance, so both are this sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The contraction of a plain product at entry `(r, c)`, re-indexed by the one contraction coordinate. -/
theorem contraction_eq_sum {M K N : Nat} (d : DotDims ⟨2, ![M, K]⟩ ⟨2, ![K, N]⟩ ⟨2, ![M, N]⟩)
    (hr : d.contr.rank = 1) (hs : d.contr.size ⟨0, by omega⟩ = K)
    (h1 : ∀ (j : (⟨2, ![M, N]⟩ : Shape).Idx) (k : d.contr.Idx), (d.lhsIdx j k 0).val = (j 0).val)
    (h2 : ∀ (j : (⟨2, ![M, N]⟩ : Shape).Idx) (k : d.contr.Idx), (d.lhsIdx j k 1).val = (k ⟨0, by omega⟩).val)
    (h3 : ∀ (j : (⟨2, ![M, N]⟩ : Shape).Idx) (k : d.contr.Idx), (d.rhsIdx j k 0).val = (k ⟨0, by omega⟩).val)
    (h4 : ∀ (j : (⟨2, ![M, N]⟩ : Shape).Idx) (k : d.contr.Idx), (d.rhsIdx j k 1).val = (j 1).val)
    (lhs : (⟨2, ![M, K]⟩ : Shape).Idx → EReal) (rhs : (⟨2, ![K, N]⟩ : Shape).Idx → EReal) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hr hs).symm]
  refine Finset.sum_congr rfl fun k _ => ?_
  have el : d.lhsIdx (ix2 r c) ((contrEquiv1 d K hr hs).symm k) = ix2 r k := by
    funext a
    refine Fin.ext ?_
    match a with
    | ⟨0, _⟩ => exact h1 _ _
    | ⟨1, _⟩ => exact (h2 _ _).trans (contrEquiv1_symm_val d K hr hs k)
  have er : d.rhsIdx (ix2 r c) ((contrEquiv1 d K hr hs).symm k) = ix2 k c := by
    funext a
    refine Fin.ext ?_
    match a with
    | ⟨0, _⟩ => exact (h3 _ _).trans (contrEquiv1_symm_val d K hr hs k)
    | ⟨1, _⟩ => exact h4 _ _
  rw [el, er]

end Idealize.ShloMosaic.PlainDot

end
-- ==== Proof.KReg0.lean ====
/-
  The matrix-product pipeline's result array.

  The grid has ten points; point t reads rows 10000 t … 10000 t + 9999 of the feature matrix x and the whole weight
  matrix W (the casts to a narrower float format are the identity on exact values), multiplies them into a zero
  accumulator, and writes the same rows of the result. Entry (R, c) of the result is therefore
      ∑ k : Fin 128, x (R, k) · W (k, c).
-/
import proofs.«172672_j70489003262548_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«172672_j70489003262548_1_alg».proof.Proof.LibPlainDot

set_option maxRecDepth 16384

noncomputable section

open scoped BigOperators

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen

theorem hz0 : (![0, 0] : Fin 2 → Nat) = fun _ => 0 := funext fun a => by fin_cases a <;> rfl

/-- The body's stored value at row `p`, column `q` of its block: the inner product of the matrix block's row `p` with
    the weight matrix's column `q`. -/
theorem pay0_apply (x0 : FVec Ideal S10000x128 .f32) (x1 : FVec Ideal S128x128 .f32) (p : Fin 10000) (q : Fin 128) :
    k0_pay1 (F := Ideal) x0 x1 (ix2 p q) = ∑ k : Fin 128, x0 (ix2 p k) * x1 (ix2 k q) := by
  unfold k0_pay1
  show FloatOps.matmul dot_S10000x128_S128x128_S10000x128_1_0_0_1_n_n none (truncf .bf16 x0 bitsLt_bf16_f32)
    (truncf .bf16 x1 bitsLt_bf16_f32) (constant S10000x128 .f32 0x00000000#32) (ix2 p q) = _
  rw [Ideal.matmul_constant_zero_apply]
  exact PlainDot.contraction_eq_sum dot_S10000x128_S128x128_S10000x128_1_0_0_1_n_n (by rfl) (by rfl)
    (fun _ _ => rfl) (fun _ _ => rfl) (fun _ _ => rfl) (fun _ _ => rfl) x0 x1 p q

/-- The product matrix as ONE function of the two argument matrices, entry by entry. -/
def xwOf (x : S100000x128.Idx → Elt Ideal .f32) (W : S128x128.Idx → Elt Ideal .f32) : S100000x128.Idx → Elt Ideal .f32 :=
  fun i => ∑ k : Fin 128, x (ix2 (⟨(i 0).val, (i 0).isLt⟩ : Fin 100000) k) * W (ix2 k (⟨(i 1).val, (i 1).isLt⟩ : Fin 128))

theorem xwOf_apply (x : S100000x128.Idx → Elt Ideal .f32) (W : S128x128.Idx → Elt Ideal .f32) (R : Fin 100000) (c : Fin 128) :
    xwOf x W (ix2 R c) = ∑ k : Fin 128, x (ix2 R k) * W (ix2 k c) := rfl

/-- A block's stored value is the block of that one function: for a matrix block `x0` holding the rows `off … off + 9999`
    of `x`, read through an index map `e` that shifts the row by `off` and keeps the column. -/
theorem blk0_entry (x : S100000x128.Idx → Elt Ideal .f32) (W : S128x128.Idx → Elt Ideal .f32)
    (x0 : FVec Ideal S10000x128 .f32) (x1 : FVec Ideal S128x128 .f32)
    (e : S10000x128.Idx → S100000x128.Idx) (off : Nat)
    (he0 : ∀ y, ((e y) 0).val = off + (y 0).val) (he1 : ∀ y, ((e y) 1).val = (y 1).val)
    (h0 : ∀ (p : Fin 10000) (k : Fin 128) (hp : off + p.val < 100000), x0 (ix2 p k) = x (ix2 ⟨off + p.val, hp⟩ k))
    (h1 : x1 = W) (y : S10000x128.Idx) :
    k0_pay1 (F := Ideal) x0 x1 y = xwOf x W (e y) := by
  subst h1
  obtain ⟨p, q, rfl⟩ : ∃ (p : Fin 10000) (q : Fin 128), y = ix2 p q := ⟨y 0, y 1, eq_ix2 y⟩
  rw [pay0_apply]
  unfold xwOf
  have hp : off + p.val < 100000 := by
    have h1 : ((e (ix2 p q)) 0).val < 100000 := ((e (ix2 p q)) 0).isLt
    have h2 : ((e (ix2 p q)) 0).val = off + p.val := he0 (ix2 p q)
    omega
  have hR : (⟨((e (ix2 p q)) 0).val, ((e (ix2 p q)) 0).isLt⟩ : Fin 100000) = ⟨off + p.val, hp⟩ := Fin.ext (he0 (ix2 p q))
  have hq : (⟨((e (ix2 p q)) 1).val, ((e (ix2 p q)) 1).isLt⟩ : Fin 128) = q := Fin.ext (he1 (ix2 p q))
  rw [hR, hq]
  exact Finset.sum_congr rfl fun k _ => by rw [h0 p k hp]

section Region0
variable (V : (c : Dev nD) → (b : Ref sig .tc) → Buf (Elt Ideal) ((c : Thread nD τ).loc b))

/-- The index maps over the grid: the feature window and the result window sit at block row `t`, column block 0; the
    weight window sits at block (0, 0). -/
theorem idx_facts0 : ∀ t : Fin cfg0.N, win0_0.index t (0 : Fin 2) = t.val ∧ win0_0.index t (1 : Fin 2) = 0
    ∧ win0_2.index t (0 : Fin 2) = t.val ∧ win0_2.index t (1 : Fin 2) = 0
    ∧ win0_1.index t (0 : Fin 2) = 0 ∧ win0_1.index t (1 : Fin 2) = 0 :=
  (by decide +kernel : ∀ t : Fin grid0.N, _)

/-- What point `t` writes back is block `t` of the product of the two matrices as the pipeline finds them. -/
theorem flushed0_eq (c : Dev nD) (t : Fin cfg0.N) :
    (dat0 V c).flushed 2 t = ((cfg0.win 2).blk t).view.read (Elt Ideal) (xwOf (V c main_arg0) (V c main_arg2)) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x128) hz0]
  obtain ⟨e00, e01, e20, e21, e10, e11⟩ := idx_facts0 t
  funext j
  show k0_pay1 (F := Ideal) (iblk0 V c 0 t) (iblk0 V c 1 t) j
    = xwOf (V c main_arg0) (V c main_arg2) (((cfg0.win 2).blk t).view.emb j)
  refine blk0_entry (V c main_arg0) (V c main_arg2) (iblk0 V c 0 t) (iblk0 V c 1 t)
    (fun y => ((cfg0.win 2).blk t).view.emb y) (t.val * 10000) ?_ ?_ ?_ ?_ j
  · intro y
    show win0_2.index t (0 : Fin 2) * 10000 + 1 * (y 0).val = t.val * 10000 + (y 0).val
    rw [e20]; omega
  · intro y
    show win0_2.index t (1 : Fin 2) * 128 + 1 * (y 1).val = (y 1).val
    rw [e21]; omega
  · intro p k hp
    show V c main_arg0 (((cfg0.win 0).blk t).view.emb (ix2 p k)) = V c main_arg0 (ix2 ⟨t.val * 10000 + p.val, hp⟩ k)
    refine congrArg _ (funext fun a => Fin.ext ?_)
    match a with
    | ⟨0, _⟩ => show win0_0.index t (0 : Fin 2) * 10000 + 1 * p.val = t.val * 10000 + p.val; rw [e00]; omega
    | ⟨1, _⟩ => show win0_0.index t (1 : Fin 2) * 128 + 1 * k.val = k.val; rw [e01]; omega
  · funext y
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; rw [e10]; omega
    | ⟨1, _⟩ => show win0_1.index t (1 : Fin 2) * 128 + 1 * (y 1).val = (y 1).val; rw [e11]; omega

/-- An index of the product array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v29).slice (win0_2.rect t)).set ↔ _
  rw [View.set_slice_whole, Rect.mem_set_unit]
  exact Iff.rfl

/-- Every row `R` of the product lies in the block of point `R / 10000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  obtain ⟨t, ht⟩ : ∃ t : Fin cfg0.N, t.val = (i 0).val / 10000 := ⟨⟨(i 0).val / 10000, by show _ < grid0.N; rw [hN]; omega⟩, rfl⟩
  obtain ⟨e00, e01, e20, e21, -⟩ := idx_facts0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    rw [e20, ht]; omega
  | ⟨1, _⟩ =>
    show win0_2.index t (1 : Fin 2) * 128 ≤ (i 1).val ∧ (i 1).val < win0_2.index t (1 : Fin 2) * 128 + 128
    rw [e21]; omega

/-- The product array after the pipeline: the product of the two matrices the pipeline found. -/
theorem final0 (c : Dev nD) : (dat0 V c).arrAt 2 cfg0.N = xwOf (V c main_arg0) (V c main_arg2) :=
  (dat0 V c).arrAt_eq_of_cover 2 _ (fun t _ => flushed0_eq V c t) cover0

end Region0

end Cert.KernelIdeal.KVal

end
-- ==== Proof.KReg1.lean ====
/-
  The statistics pipeline's result array.

  The grid has ten points and ONE output block, a 2 × 128 array whose block index never moves: it is zeroed at point
  0, every point adds to its row 0 the column sums of (its 10000 rows of the aggregated matrix + bias) and to its row 1
  the column sums of their squares, and it is written back after point 9 only. What the result array ends holding is
  the accumulation after the last point.
-/
import proofs.«172672_j70489003262548_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.KVal

open Idealize.ShloMosaic Idealize.ShloMosaic.TcCoe Idealize.SL.Sem Idealize.ShloMosaic.ValueIdx
open Idealize.ShloMosaic.Pipeline (Dat)
open Idealize.ShloMosaic.Tactic
open Cert.KernelIdeal Cert.KernelIdeal.Gen

theorem hz1 : (![0, 0] : Fin 2 → Nat) = fun _ => 0 := funext fun a => by fin_cases a <;> rfl

/-- The zero block the first point stores. -/
abbrev zero1 : Vec Ideal S2x128 .f32 := k1_pay1 (F := Ideal)

/-- A later point's value: on an output block holding `xo`, the body leaves the accumulation step of `xo` with the
    point's matrix block `x0` and the bias row `x1` — its one covering store's payload, whose loads read whole buffers. -/
theorem out_B (c : Dev nD) (i : grid1.Coords) (a1 : Memref sig .tc .vmem S10000x128 .f32) (h1 : a1.IsWhole)
    (a2 : Memref sig .tc .vmem S1x128 .f32) (h2 : a2.IsWhole) (a3 : Memref sig .tc .vmem S2x128 .f32) (h3 : a3.IsWhole)
    (hc : ¬cond1_0 i) (x0 : Vec Ideal S10000x128 .f32) (x1 : Vec Ideal S1x128 .f32) (xo : Vec Ideal S2x128 .f32) :
    out1_B_2 c i a1 h1 a2 h2 a3 h3 hc x0 x1 xo = k1_pay2 x0 x1 xo := by
  unfold out1_B_2
  rw [View.read_writes_eq_canon _ _ _ (cover1_B_2 c i a1 h1 a2 h2 a3 h3 hc x0 x1 xo)]
  unfold kernelRun1_B
  dsimp only
  rw [View.canon_unit_zero hz1]
  simp only [View.readAt_eq_ld, h1.read_unread, h2.read_unread, h3.read_unread, View.ld_unit_zero (S := S10000x128) hz1,
    View.ld_unit_zero (S := S1x128) hz1, View.ld_unit_zero (S := S2x128) hz1]

/-- The first point's value: the body stores the zero block, reads it back, and leaves the accumulation step of the
    zero block with the point's matrix block and the bias row. -/
theorem out_A (c : Dev nD) (i : grid1.Coords) (a1 : Memref sig .tc .vmem S10000x128 .f32) (h1 : a1.IsWhole)
    (a2 : Memref sig .tc .vmem S1x128 .f32) (h2 : a2.IsWhole) (a3 : Memref sig .tc .vmem S2x128 .f32) (h3 : a3.IsWhole)
    (hc : cond1_0 i) (x0 : Vec Ideal S10000x128 .f32) (x1 : Vec Ideal S1x128 .f32) :
    out1_A_2 c i a1 h1 a2 h2 a3 h3 hc x0 x1 = k1_pay2 x0 x1 zero1 := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S2x128) hz1, View.readCov_unit_zero (S := S2x128) _ hz1]
  simp only [View.readAt_eq_ld, h1.read_unread, h2.read_unread, View.ld_unit_zero (S := S10000x128) hz1,
    View.ld_unit_zero (S := S1x128) hz1]

section Region1
variable (V : (c : Dev nD) → (b : Ref sig .tc) → Buf (Elt Ideal) ((c : Thread nD τ).loc b))

/-- The accumulation after point `n`: the step of the zero block at point 0, then the step of the previous value. -/
def statsChain (c : Dev nD) : (n : ℕ) → n < cfg1.N → Vec Ideal S2x128 .f32
  | 0, h => k1_pay2 (iblk1 V c 0 ⟨0, h⟩) (iblk1 V c 1 ⟨0, h⟩) zero1
  | n + 1, h => k1_pay2 (iblk1 V c 0 ⟨n + 1, h⟩) (iblk1 V c 1 ⟨n + 1, h⟩) (statsChain c n (Nat.lt_of_succ_lt h))

/-- What the output block holds after point `n` IS that accumulation — by induction on the point. -/
theorem outsAt_eq (c : Dev nD) : ∀ (n : ℕ) (h : n < cfg1.N), outsAt1 V c n h = statsChain V c n h
  | 0, h => (outsAt1_A V c ⟨0, h⟩ rfl).trans (out_A ..)
  | n + 1, h => by
    have hN : grid1.N = 10 := N_1
    have hlt : n + 1 < 10 := by have : n + 1 < grid1.N := h; omega
    have hB : ¬(⟨n + 1, h⟩ : Fin cfg1.N).val % 10 = 0 := by dsimp only; omega
    rw [outsAt1_B V c ⟨n + 1, h⟩ hB, out_B]
    show k1_pay2 _ _ (outsAt1 V c n _) = k1_pay2 _ _ (statsChain V c n _)
    rw [outsAt_eq c n]

/-- The result: the accumulation after the last point, as contents of the statistics array (its one block IS the array). -/
abbrev result1 (c : Dev nD) : Buf (Elt Ideal) ((c : Thread nD τ).loc main_v46) :=
  statsChain V c 9 (by show 9 < grid1.N; rw [N_1]; decide)

/-- The one write-back, at point 9, writes it: block (0, 0) of the 2 × 128 array read through zero offsets is the array. -/
theorem flushed1_eq (c : Dev nD) (t : Fin cfg1.N) (hf : (cfg1.win 2).flush t = true) :
    (dat1 V c).flushed 2 t = ((cfg1.win 2).blk t).view.read (Elt Ideal) (result1 V c) := by
  have hN : grid1.N = 10 := N_1
  have h9 : t.val = 9 := by have := (flush1_2 t).mp hf; have : t.val < grid1.N := t.isLt; omega
  obtain rfl : t = t1_9 := Fin.ext h9
  show (cfg1.win 2).cut (grid1.coords t1_9) ((dat1 V c).after 2 t1_9) = _
  rw [after1_2, outsAt_eq]
  have hz' : (fun a => win1_2.index t1_9 a * main_v46.ty.shape.size a) = fun _ => 0 := funext fun a => by fin_cases a <;> decide
  exact (Memref.read_access_unit_zero (Elt Ideal) main_v46 hz' (fun a => by rw [congrFun hz' a]; simp) (result1 V c)).symm

/-- So the statistics array ends holding the accumulation after point 9: that point's block covers the array. -/
theorem final1 (c : Dev nD) : (dat1 V c).arrAt 2 cfg1.N = result1 V c :=
  (dat1 V c).arrAt_eq_of_cover 2 (result1 V c) (flushed1_eq V c) fun i =>
    ⟨t1_9, (flush1_2 t1_9).mpr rfl, by
      show i ∈ ((View.whole main_v46).slice (win1_2.rect t1_9)).set
      rw [View.set_slice_whole, Rect.mem_set_unit]
      intro a
      have h0 : (i 0 : Nat) < 2 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 2 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

end Region1

end Cert.KernelIdeal.KVal

end
-- ==== Proof.KReg2.lean ====
/-
  The normalisation pipeline's result array.

  The grid has ten points; point t reads rows 10000 t … 10000 t + 9999 of the aggregated matrix and the whole of five
  one-row arrays (bias, mean, variance, scale, shift), and writes the same rows of the result. Entry (R, q) of the
  result is therefore one function of entry (R, q) of the matrix and entry q of each row array:
      max ( ((o + b) − μ) · rsqrt (v + ε) · γ + β , 0 ).
-/
import proofs.«172672_j70489003262548_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen

/-- The normalised, rectified entry from the aggregated entry `o`, bias `b`, mean `mu`, variance `va`, scale `g`, shift `be`. -/
def bnEntry (o b mu va g be : Ideal .f32) : Ideal .f32 :=
  FloatOps.maximumf (FloatOps.addf (FloatOps.mulf (FloatOps.mulf (FloatOps.subf (FloatOps.addf o b) mu)
    (FloatOps.rsqrt (FloatOps.addf va (Scalar.ofBits .f32 0x3727C5AC#32)))) g) be) (Scalar.ofBits .f32 0x00000000#32)

theorem hz2 : (![0, 0] : Fin 2 → Nat) = fun _ => 0 := funext fun a => by fin_cases a <;> rfl

/-- The body's stored value at row `p`, column `q` of its block: the entry formula of the matrix block's entry and the
    row arrays' entries at column `q` (the body loads the variance before the mean). -/
theorem pay2_apply (x0 : FVec Ideal S10000x128 .f32) (xb xv xm xg xe : FVec Ideal S1x128 .f32) (p : Fin 10000) (q : Fin 128) :
    k2_pay1 x0 xb xv xm xg xe (ix2 p q)
      = bnEntry (x0 (ix2 p q)) (xb (ix2 (0 : Fin 1) q)) (xm (ix2 (0 : Fin 1) q)) (xv (ix2 (0 : Fin 1) q))
          (xg (ix2 (0 : Fin 1) q)) (xe (ix2 (0 : Fin 1) q)) := by
  unfold k2_pay1
  simp only [shapeCast_self]
  show FloatOps.maximumf (FloatOps.addf (FloatOps.mulf (FloatOps.mulf (FloatOps.subf (FloatOps.addf (x0 (ix2 p q))
      (broadcastTo S10000x128 xb broadcasts_S1x128_S10000x128 (ix2 p q)))
      (broadcastTo S10000x128 xm broadcasts_S1x128_S10000x128 (ix2 p q)))
      (broadcastTo S10000x128 (rsqrt (addf xv (broadcast S1x128 (Scalar.ofBits .f32 0x3727C5AC#32)))) broadcasts_S1x128_S10000x128 (ix2 p q)))
      (broadcastTo S10000x128 xg broadcasts_S1x128_S10000x128 (ix2 p q)))
      (broadcastTo S10000x128 xe broadcasts_S1x128_S10000x128 (ix2 p q))) (Scalar.ofBits .f32 0x00000000#32) = _
  rw [broadcastTo_1b_ab_apply, broadcastTo_1b_ab_apply, broadcastTo_1b_ab_apply, broadcastTo_1b_ab_apply, broadcastTo_1b_ab_apply]
  rfl

/-- The result array as ONE function of the aggregated matrix and the five row arrays, entry by entry. -/
def G2 (raw : S100000x128.Idx → Elt Ideal .f32) (b mu va g be : S1x128.Idx → Elt Ideal .f32) : S100000x128.Idx → Elt Ideal .f32 :=
  fun i => bnEntry (raw i) (b (ix2 (0 : Fin 1) (⟨(i 1).val, (i 1).isLt⟩ : Fin 128))) (mu (ix2 (0 : Fin 1) (⟨(i 1).val, (i 1).isLt⟩ : Fin 128)))
    (va (ix2 (0 : Fin 1) (⟨(i 1).val, (i 1).isLt⟩ : Fin 128))) (g (ix2 (0 : Fin 1) (⟨(i 1).val, (i 1).isLt⟩ : Fin 128)))
    (be (ix2 (0 : Fin 1) (⟨(i 1).val, (i 1).isLt⟩ : Fin 128)))

theorem G2_apply (raw : S100000x128.Idx → Elt Ideal .f32) (b mu va g be : S1x128.Idx → Elt Ideal .f32) (R : Fin 100000) (q : Fin 128) :
    G2 raw b mu va g be (ix2 R q) = bnEntry (raw (ix2 R q)) (b (ix2 (0 : Fin 1) q)) (mu (ix2 (0 : Fin 1) q)) (va (ix2 (0 : Fin 1) q))
      (g (ix2 (0 : Fin 1) q)) (be (ix2 (0 : Fin 1) q)) := rfl

/-- A block's stored value is the block of that one function: for a matrix block `x0` that reads the matrix through an
    index map `e` keeping the column, and row blocks that are the row arrays themselves. -/
theorem blk2_entry (raw : S100000x128.Idx → Elt Ideal .f32) (b mu va g be : S1x128.Idx → Elt Ideal .f32)
    (x0 : FVec Ideal S10000x128 .f32) (xb xv xm xg xe : FVec Ideal S1x128 .f32)
    (e : S10000x128.Idx → S100000x128.Idx)
    (h0 : ∀ y, x0 y = raw (e y)) (h1 : ∀ y, ((e y) 1).val = (y 1).val)
    (hb : xb = b) (hv : xv = va) (hm : xm = mu) (hg : xg = g) (he : xe = be) (y : S10000x128.Idx) :
    k2_pay1 (F := Ideal) x0 xb xv xm xg xe y = G2 raw b mu va g be (e y) := by
  subst hb hv hm hg he
  obtain ⟨p, q, rfl⟩ : ∃ (p : Fin 10000) (q : Fin 128), y = ix2 p q := ⟨y 0, y 1, eq_ix2 y⟩
  rw [pay2_apply, h0]
  have hq : (⟨((e (ix2 p q)) 1).val, ((e (ix2 p q)) 1).isLt⟩ : Fin 128) = q := Fin.ext (h1 (ix2 p q))
  unfold G2
  rw [hq]

section Region2
variable (V : (c : Dev nD) → (b : Ref sig .tc) → Buf (Elt Ideal) ((c : Thread nD τ).loc b))

/-- The index maps over the grid: the matrix window and the result window sit at block row `t`, column block 0; every
    row array's window sits at block (0, 0). -/
theorem idx_facts2 : ∀ t : Fin cfg2.N, win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- What point `t` writes back is block `t` of the one function `G2` of the arrays as the pipeline finds them. -/
theorem flushed2_eq (c : Dev nD) (t : Fin cfg2.N) :
    (dat2 V c).flushed 6 t = ((cfg2.win 6).blk t).view.read (Elt Ideal)
      (G2 (V c main_v42) (V c main_v43) (V c main_v49) (V c main_v54) (V c main_v44) (V c main_v45)) := by
  show (cfg2.win 6).cut (grid2.coords t) ((dat2 V c).after 6 t) = _
  rw [after2_6]
  unfold out2_6
  rw [View.canon_unit_zero hz2]
  simp only [View.ld_unit_zero (S := S10000x128) hz2, View.ld_unit_zero (S := S1x128) hz2]
  obtain ⟨e00, e01, e60, e61, e10, e11, e20, e21, e30, e31, e40, e41, e50, e51⟩ := idx_facts2 t
  funext j
  show k2_pay1 (F := Ideal) (iblk2 V c 0 t) (iblk2 V c 1 t) (iblk2 V c 3 t) (iblk2 V c 2 t) (iblk2 V c 4 t) (iblk2 V c 5 t) j
    = G2 (V c main_v42) (V c main_v43) (V c main_v49) (V c main_v54) (V c main_v44) (V c main_v45) (((cfg2.win 6).blk t).view.emb j)
  refine blk2_entry (V c main_v42) (V c main_v43) (V c main_v49) (V c main_v54) (V c main_v44) (V c main_v45)
    (iblk2 V c 0 t) (iblk2 V c 1 t) (iblk2 V c 3 t) (iblk2 V c 2 t) (iblk2 V c 4 t) (iblk2 V c 5 t)
    (fun y => ((cfg2.win 6).blk t).view.emb y) ?_ ?_ ?_ ?_ ?_ ?_ ?_ j
  · intro y
    show V c main_v42 (((cfg2.win 0).blk t).view.emb y) = V c main_v42 (((cfg2.win 6).blk t).view.emb y)
    refine congrArg _ (funext fun a => Fin.ext ?_)
    match a with
    | ⟨0, _⟩ => show win2_0.index t (0 : Fin 2) * 10000 + 1 * (y 0).val = win2_6.index t (0 : Fin 2) * 10000 + 1 * (y 0).val; rw [e00, e60]
    | ⟨1, _⟩ => show win2_0.index t (1 : Fin 2) * 128 + 1 * (y 1).val = win2_6.index t (1 : Fin 2) * 128 + 1 * (y 1).val; rw [e01, e61]
  · intro y
    show win2_6.index t (1 : Fin 2) * 128 + 1 * (y 1).val = (y 1).val
    rw [e61]; omega
  · funext y
    show V c main_v43 (((cfg2.win 1).blk t).view.emb y) = V c main_v43 y
    refine congrArg _ (funext fun a => Fin.ext ?_)
    match a with
    | ⟨0, _⟩ => show win2_1.index t (0 : Fin 2) * 1 + 1 * (y 0).val = (y 0).val; rw [e10]; omega
    | ⟨1, _⟩ => show win2_1.index t (1 : Fin 2) * 128 + 1 * (y 1).val = (y 1).val; rw [e11]; omega
  · funext y
    show V c main_v54 (((cfg2.win 3).blk t).view.emb y) = V c main_v54 y
    refine congrArg _ (funext fun a => Fin.ext ?_)
    match a with
    | ⟨0, _⟩ => show win2_3.index t (0 : Fin 2) * 1 + 1 * (y 0).val = (y 0).val; rw [e30]; omega
    | ⟨1, _⟩ => show win2_3.index t (1 : Fin 2) * 128 + 1 * (y 1).val = (y 1).val; rw [e31]; omega
  · funext y
    show V c main_v49 (((cfg2.win 2).blk t).view.emb y) = V c main_v49 y
    refine congrArg _ (funext fun a => Fin.ext ?_)
    match a with
    | ⟨0, _⟩ => show win2_2.index t (0 : Fin 2) * 1 + 1 * (y 0).val = (y 0).val; rw [e20]; omega
    | ⟨1, _⟩ => show win2_2.index t (1 : Fin 2) * 128 + 1 * (y 1).val = (y 1).val; rw [e21]; omega
  · funext y
    show V c main_v44 (((cfg2.win 4).blk t).view.emb y) = V c main_v44 y
    refine congrArg _ (funext fun a => Fin.ext ?_)
    match a with
    | ⟨0, _⟩ => show win2_4.index t (0 : Fin 2) * 1 + 1 * (y 0).val = (y 0).val; rw [e40]; omega
    | ⟨1, _⟩ => show win2_4.index t (1 : Fin 2) * 128 + 1 * (y 1).val = (y 1).val; rw [e41]; omega
  · funext y
    show V c main_v45 (((cfg2.win 5).blk t).view.emb y) = V c main_v45 y
    refine congrArg _ (funext fun a => Fin.ext ?_)
    match a with
    | ⟨0, _⟩ => show win2_5.index t (0 : Fin 2) * 1 + 1 * (y 0).val = (y 0).val; rw [e50]; omega
    | ⟨1, _⟩ => show win2_5.index t (1 : Fin 2) * 128 + 1 * (y 1).val = (y 1).val; rw [e51]; omega

/-- An index of the result array is in point `t`'s block iff each coordinate is in the block's range on its axis. -/
theorem mem_blk2 (t : Fin cfg2.N) (i : S100000x128.Idx) :
    i ∈ ((cfg2.win 6).blk t).view.set ↔ ∀ a : Fin 2, win2_6.index t a * S10000x128.size a ≤ (i a).val
      ∧ (i a).val < win2_6.index t a * S10000x128.size a + S10000x128.size a := by
  show i ∈ ((View.whole main_v55).slice (win2_6.rect t)).set ↔ _
  rw [View.set_slice_whole, Rect.mem_set_unit]
  exact Iff.rfl

/-- Every row `R` of the result lies in the block of point `R / 10000`. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : grid2.N = 10 := N_2
  obtain ⟨t, ht⟩ : ∃ t : Fin cfg2.N, t.val = (i 0).val / 10000 := ⟨⟨(i 0).val / 10000, by show _ < grid2.N; rw [hN]; omega⟩, rfl⟩
  obtain ⟨e00, e01, e60, e61, -⟩ := idx_facts2 t
  refine ⟨t, flush2_6 t, ?_⟩
  rw [mem_blk2]
  intro a
  match a with
  | ⟨0, _⟩ =>
    show win2_6.index t (0 : Fin 2) * 10000 ≤ (i 0).val ∧ (i 0).val < win2_6.index t (0 : Fin 2) * 10000 + 10000
    rw [e60, ht]; omega
  | ⟨1, _⟩ =>
    show win2_6.index t (1 : Fin 2) * 128 ≤ (i 1).val ∧ (i 1).val < win2_6.index t (1 : Fin 2) * 128 + 128
    rw [e61]; omega

/-- The result array after the pipeline: the one function of the arrays the pipeline found. -/
theorem final2 (c : Dev nD) : (dat2 V c).arrAt 6 cfg2.N
    = G2 (V c main_v42) (V c main_v43) (V c main_v49) (V c main_v54) (V c main_v44) (V c main_v45) :=
  (dat2 V c).arrAt_eq_of_cover 6 _ (fun t _ => flushed2_eq V c t) cover2

end Region2

end Cert.KernelIdeal.KVal

end
-- ==== Proof.KHost.lean ====
/-
  The host stretches between the three pipelines, read at the buffers the pipelines use.

  Before the product: the edge list extended by one self-loop per node gives the source and destination vectors; a
  node's weight is the inverse square root of its in-degree (at least one); an edge's coefficient is the product of
  its ends' weights. After the product: every edge carries its source's row of the product, scaled by its
  coefficient, to its destination, where rows are summed; the bias, scale and shift vectors are stood up as one-row
  arrays. After the statistics: the mean is row 0 of the statistics over the row count, the variance row 1 over the
  row count less the mean's square.
-/
import proofs.«172672_j70489003262548_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«172672_j70489003262548_1_alg».proof.Proof.KReg0
import proofs.«172672_j70489003262548_1_alg».proof.Proof.KReg1
import proofs.«172672_j70489003262548_1_alg».proof.Proof.KReg2

set_option maxRecDepth 16384

noncomputable section

open scoped BigOperators

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Idealize.ShloMosaic.StableHlo

/-- The edges' sources: row 0 of the edge list, then one self-loop per node. -/
def kSrc (ei : (⟨S2x1600000, .i32⟩ : BufTy).Contents (Elt Ideal)) : (⟨S1700000, .i32⟩ : BufTy).Contents (Elt Ideal) :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The edges' destinations: row 1 of the edge list, then one self-loop per node. -/
def kDst (ei : (⟨S2x1600000, .i32⟩ : BufTy).Contents (Elt Ideal)) : (⟨S1700000, .i32⟩ : BufTy).Contents (Elt Ideal) :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A gather's index column: a negative node number counted from the end, the vector stood up as one column. -/
def kWrap (v : (⟨S1700000, .i32⟩ : BufTy).Contents (Elt Ideal)) : (⟨S1700000x1, .i32⟩ : BufTy).Contents (Elt Ideal) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- A node's weight: the inverse square root of its in-degree, the degree taken as at least one. -/
def kDis (ei : (⟨S2x1600000, .i32⟩ : BufTy).Contents (Elt Ideal)) : (⟨S100000, .f32⟩ : BufTy).Contents (Elt Ideal) :=
  Host.rsqrt (F := Ideal) (φ := .f32) (maximumf (F := Ideal) (φ := .f32)
    (Host.scatterAdd (F := Ideal) (φ := .f32) scatter_S100000_S1700000x1_S1700000_n_0_0_1
      (broadcastInDim S100000 ![] bcast_S_S100000 (constant (F := Ideal) S_ .f32 0x00000000#32))
      (broadcastInDim S1700000x1 ![0] bcast_S1700000_S1700000x1_0 (kDst ei))
      (broadcastInDim S1700000 ![] bcast_S_S1700000 (constant (F := Ideal) S_ .f32 0x3F800000#32)))
    (broadcastInDim S100000 ![] bcast_S_S100000 (constant (F := Ideal) S_ .f32 0x3F800000#32)))

/-- An edge's coefficient: its source's weight times its destination's. -/
def kNorm (ei : (⟨S2x1600000, .i32⟩ : BufTy).Contents (Elt Ideal)) : (⟨S1700000, .f32⟩ : BufTy).Contents (Elt Ideal) :=
  mulf (F := Ideal) (φ := .f32) (Host.gather gather_S100000_S1700000x1_S1700000_n_0_n_n_0_1_1 (kDis ei) (kWrap (kSrc ei)))
    (Host.gather gather_S100000_S1700000x1_S1700000_n_0_n_n_0_1_1 (kDis ei) (kWrap (kDst ei)))

/-- The aggregation, as a function of the matrix whose rows travel along the edges. -/
def kRaw (xw : (⟨S100000x128, .f32⟩ : BufTy).Contents (Elt Ideal)) (ei : (⟨S2x1600000, .i32⟩ : BufTy).Contents (Elt Ideal)) : (⟨S100000x128, .f32⟩ : BufTy).Contents (Elt Ideal) :=
  Host.scatterAdd (F := Ideal) (φ := .f32) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 (kDst ei))
    (mulf (F := Ideal) (φ := .f32) (Host.gather gather_S100000x128_S1700000x1_S1700000x128_1_0_n_n_0_1_1128 xw (kWrap (kSrc ei)))
      (broadcastInDim S1700000x128 ![0, 1] bcast_S1700000x1_S1700000x128_0_1
        (broadcastInDim S1700000x1 ![0] bcast_S1700000_S1700000x1_0 (kNorm ei))))

/-- The mean row from the statistics: row 0 over the row count. -/
def kMean (st : (⟨S2x128, .f32⟩ : BufTy).Contents (Elt Ideal)) : (⟨S1x128, .f32⟩ : BufTy).Contents (Elt Ideal) :=
  Host.divf (F := Ideal) (φ := .f32) (extractStridedSlice S1x128 ![0, 0] st slices_S2x128_S1x128_0_0)
    (broadcastInDim S1x128 ![] bcast_S_S1x128 (constant (F := Ideal) S_ .f32 0x47C35000#32))

/-- The variance row from the statistics: row 1 over the row count, less the mean's square. -/
def kVar (st : (⟨S2x128, .f32⟩ : BufTy).Contents (Elt Ideal)) : (⟨S1x128, .f32⟩ : BufTy).Contents (Elt Ideal) :=
  subf (F := Ideal) (φ := .f32)
    (Host.divf (F := Ideal) (φ := .f32) (extractStridedSlice S1x128 ![1, 0] st slices_S2x128_S1x128_1_0)
      (broadcastInDim S1x128 ![] bcast_S_S1x128 (constant (F := Ideal) S_ .f32 0x47C35000#32)))
    (mulf (F := Ideal) (φ := .f32) (kMean st) (kMean st))

variable (m : (ℓ : Loc nD τ sig) → Buf (Elt Ideal) ℓ) (ρ : Dev nD → PrngReg)

/-! ## Before the product -/

theorem W1_src (c : Dev nD) : W1 m ρ c (Proc.devRef .tc main_v3) = kSrc (m ((c : Thread nD τ).loc main_arg1)) := by
  show StableHlo.after hostOps0 (W0 m ρ c) (Proc.devRef .tc main_v3) = _
  after_results_simp
  rfl

theorem W1_dst (c : Dev nD) : W1 m ρ c (Proc.devRef .tc main_v6) = kDst (m ((c : Thread nD τ).loc main_arg1)) := by
  show StableHlo.after hostOps0 (W0 m ρ c) (Proc.devRef .tc main_v6) = _
  after_results_simp
  rfl

theorem W1_norm (c : Dev nD) : W1 m ρ c (Proc.devRef .tc main_v28) = kNorm (m ((c : Thread nD τ).loc main_arg1)) := by
  show StableHlo.after hostOps0 (W0 m ρ c) (Proc.devRef .tc main_v28) = _
  after_results_simp
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results_simp

theorem W1_arg2 (c : Dev nD) : W1 m ρ c (Proc.devRef .tc main_arg2) = m ((c : Thread nD τ).loc main_arg2) := by
  show StableHlo.after hostOps0 (W0 m ρ c) (Proc.devRef .tc main_arg2) = _
  after_results_simp

theorem W1_arg3 (c : Dev nD) : W1 m ρ c (Proc.devRef .tc main_arg3) = m ((c : Thread nD τ).loc main_arg3) := by
  show StableHlo.after hostOps0 (W0 m ρ c) (Proc.devRef .tc main_arg3) = _
  after_results_simp

theorem W1_arg4 (c : Dev nD) : W1 m ρ c (Proc.devRef .tc main_arg4) = m ((c : Thread nD τ).loc main_arg4) := by
  show StableHlo.after hostOps0 (W0 m ρ c) (Proc.devRef .tc main_arg4) = _
  after_results_simp

theorem W1_arg5 (c : Dev nD) : W1 m ρ c (Proc.devRef .tc main_arg5) = m ((c : Thread nD τ).loc main_arg5) := by
  show StableHlo.after hostOps0 (W0 m ρ c) (Proc.devRef .tc main_arg5) = _
  after_results_simp

/-! ## The product, and after it -/

/-- The product pipeline leaves the product of the two argument matrices. -/
theorem W2_xw (c : Dev nD) : W2 m ρ c (Proc.devRef .tc main_v29) = xwOf (m ((c : Thread nD τ).loc main_arg0)) (m ((c : Thread nD τ).loc main_arg2)) := by
  refine (W2_arr m ρ c 2).trans ((final0 (V1 m ρ) c).trans ?_)
  show xwOf (W1 m ρ c (Proc.devRef .tc main_arg0)) (W1 m ρ c (Proc.devRef .tc main_arg2)) = _
  rw [W1_arg0, W1_arg2]

theorem W2_src (c : Dev nD) : W2 m ρ c (Proc.devRef .tc main_v3) = kSrc (m ((c : Thread nD τ).loc main_arg1)) :=
  (W2_of_ne m ρ c main_v3 (by decide)).trans (W1_src m ρ c)
theorem W2_dst (c : Dev nD) : W2 m ρ c (Proc.devRef .tc main_v6) = kDst (m ((c : Thread nD τ).loc main_arg1)) :=
  (W2_of_ne m ρ c main_v6 (by decide)).trans (W1_dst m ρ c)
theorem W2_norm (c : Dev nD) : W2 m ρ c (Proc.devRef .tc main_v28) = kNorm (m ((c : Thread nD τ).loc main_arg1)) :=
  (W2_of_ne m ρ c main_v28 (by decide)).trans (W1_norm m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg5 (c : Dev nD) : W2 m ρ c (Proc.devRef .tc main_arg5) = (m ((c : Thread nD τ).loc main_arg5)) :=
  (W2_of_ne m ρ c main_arg5 (by decide)).trans (W1_arg5 m ρ c)

/-- The aggregated matrix the later pipelines read: the aggregation of the product along the edges. -/
theorem W3_raw (c : Dev nD) : W3 m ρ c (Proc.devRef .tc main_v42) = kRaw (xwOf (m ((c : Thread nD τ).loc main_arg0)) (m ((c : Thread nD τ).loc main_arg2))) (m ((c : Thread nD τ).loc main_arg1)) := by
  show StableHlo.after hostOps1 (W2 m ρ c) (Proc.devRef .tc main_v42) = _
  after_results_simp
  rw [W2_xw, W2_src, W2_dst, W2_norm]
  try rfl

/-- The bias, scale and shift as one-row arrays. -/
theorem W3_b (c : Dev nD) : W3 m ρ c (Proc.devRef .tc main_v43) = shapeCast S1x128 (m ((c : Thread nD τ).loc main_arg3)) shapeCasts_S128_S1x128 := by
  show StableHlo.after hostOps1 (W2 m ρ c) (Proc.devRef .tc main_v43) = _
  after_results_simp
  rw [W2_arg3]
  try rfl
theorem W3_g (c : Dev nD) : W3 m ρ c (Proc.devRef .tc main_v44) = shapeCast S1x128 (m ((c : Thread nD τ).loc main_arg4)) shapeCasts_S128_S1x128 := by
  show StableHlo.after hostOps1 (W2 m ρ c) (Proc.devRef .tc main_v44) = _
  after_results_simp
  rw [W2_arg4]
  try rfl
theorem W3_be (c : Dev nD) : W3 m ρ c (Proc.devRef .tc main_v45) = shapeCast S1x128 (m ((c : Thread nD τ).loc main_arg5)) shapeCasts_S128_S1x128 := by
  show StableHlo.after hostOps1 (W2 m ρ c) (Proc.devRef .tc main_v45) = _
  after_results_simp
  rw [W2_arg5]
  try rfl

/-! ## The statistics, and after them -/

/-- The statistics pipeline leaves the accumulation after its last point; its two inputs stay as entered. -/
theorem W4_stats (c : Dev nD) : W4 m ρ c (Proc.devRef .tc main_v46) = result1 (V3 m ρ) c :=
  (W4_arr m ρ c 2).trans (final1 (V3 m ρ) c)
theorem W4_raw (c : Dev nD) : W4 m ρ c (Proc.devRef .tc main_v42) = W3 m ρ c (Proc.devRef .tc main_v42) :=
  (W4_arr m ρ c 0).trans (((dat1 (V3 m ρ) c).arrAt_in 0 rfl _).trans (A_eq1 (V3 m ρ) c 0))
theorem W4_b (c : Dev nD) : W4 m ρ c (Proc.devRef .tc main_v43) = W3 m ρ c (Proc.devRef .tc main_v43) :=
  (W4_arr m ρ c 1).trans (((dat1 (V3 m ρ) c).arrAt_in 1 rfl _).trans (A_eq1 (V3 m ρ) c 1))
theorem W4_g (c : Dev nD) : W4 m ρ c (Proc.devRef .tc main_v44) = W3 m ρ c (Proc.devRef .tc main_v44) :=
  W4_of_ne m ρ c main_v44 (by decide)
theorem W4_be (c : Dev nD) : W4 m ρ c (Proc.devRef .tc main_v45) = W3 m ρ c (Proc.devRef .tc main_v45) :=
  W4_of_ne m ρ c main_v45 (by decide)

theorem W5_mean (c : Dev nD) : W5 m ρ c (Proc.devRef .tc main_v49) = kMean (result1 (V3 m ρ) c) := by
  show StableHlo.after hostOps2 (W4 m ρ c) (Proc.devRef .tc main_v49) = _
  after_results_simp
  rw [W4_stats]
  try rfl
theorem W5_var (c : Dev nD) : W5 m ρ c (Proc.devRef .tc main_v54) = kVar (result1 (V3 m ρ) c) := by
  show StableHlo.after hostOps2 (W4 m ρ c) (Proc.devRef .tc main_v54) = _
  after_results_simp
  rw [W4_stats]
  try rfl
theorem W5_raw (c : Dev nD) : W5 m ρ c (Proc.devRef .tc main_v42) = kRaw (xwOf (m ((c : Thread nD τ).loc main_arg0)) (m ((c : Thread nD τ).loc main_arg2))) (m ((c : Thread nD τ).loc main_arg1)) := by
  show StableHlo.after hostOps2 (W4 m ρ c) (Proc.devRef .tc main_v42) = _
  after_results_simp
  rw [W4_raw, W3_raw]
theorem W5_b (c : Dev nD) : W5 m ρ c (Proc.devRef .tc main_v43) = shapeCast S1x128 (m ((c : Thread nD τ).loc main_arg3)) shapeCasts_S128_S1x128 := by
  show StableHlo.after hostOps2 (W4 m ρ c) (Proc.devRef .tc main_v43) = _
  after_results_simp
  rw [W4_b, W3_b]
theorem W5_g (c : Dev nD) : W5 m ρ c (Proc.devRef .tc main_v44) = shapeCast S1x128 (m ((c : Thread nD τ).loc main_arg4)) shapeCasts_S128_S1x128 := by
  show StableHlo.after hostOps2 (W4 m ρ c) (Proc.devRef .tc main_v44) = _
  after_results_simp
  rw [W4_g, W3_g]
theorem W5_be (c : Dev nD) : W5 m ρ c (Proc.devRef .tc main_v45) = shapeCast S1x128 (m ((c : Thread nD τ).loc main_arg5)) shapeCasts_S128_S1x128 := by
  show StableHlo.after hostOps2 (W4 m ρ c) (Proc.devRef .tc main_v45) = _
  after_results_simp
  rw [W4_be, W3_be]

/-! ## The result -/

/-- The result array at the last boundary: the normalisation of the aggregated matrix with the bias row, the mean
    and variance rows of the statistics, and the scale and shift rows. -/
theorem W6_result (c : Dev nD) : W6 m ρ c (Proc.devRef .tc main_v55)
    = G2 (kRaw (xwOf (m ((c : Thread nD τ).loc main_arg0)) (m ((c : Thread nD τ).loc main_arg2))) (m ((c : Thread nD τ).loc main_arg1))) (shapeCast S1x128 (m ((c : Thread nD τ).loc main_arg3)) shapeCasts_S128_S1x128)
        (kMean (result1 (V3 m ρ) c)) (kVar (result1 (V3 m ρ) c))
        (shapeCast S1x128 (m ((c : Thread nD τ).loc main_arg4)) shapeCasts_S128_S1x128) (shapeCast S1x128 (m ((c : Thread nD τ).loc main_arg5)) shapeCasts_S128_S1x128) := by
  refine (W6_arr m ρ c 6).trans ((final2 (V5 m ρ) c).trans ?_)
  show G2 (W5 m ρ c (Proc.devRef .tc main_v42)) (W5 m ρ c (Proc.devRef .tc main_v43)) (W5 m ρ c (Proc.devRef .tc main_v49))
    (W5 m ρ c (Proc.devRef .tc main_v54)) (W5 m ρ c (Proc.devRef .tc main_v44)) (W5 m ρ c (Proc.devRef .tc main_v45)) = _
  rw [W5_raw, W5_b, W5_mean, W5_var, W5_g, W5_be]

end Cert.KernelIdeal.KVal

end
-- ==== Proof.KStatsPay.lean ====
/-
  THE COLUMN-STATISTICS BODY, READ AT AN INDEX.

  One step of the column statistics adds, onto a running `[2, 128]` accumulator, the column sums (row 0) and the
  column sums of squares (row 1) of a `[10000, 128]` block to which a `[1, 128]` bias row has been added. At the
  exact instance, at column `q`:

      row 0:  acc[0, q] + ∑ r, (x0[r, q] + x1[0, q])
      row 1:  acc[1, q] + ∑ r, (x0[r, q] + x1[0, q])²

  and the value the accumulator is initialised with is `0` everywhere. The body is read one operation at a time: the
  outer sum at an index, the two-piece concatenation at a row of either piece, the cast that adds a unit axis, the
  reduction over the row axis as a sum over the rows, and the bias row broadcast over the rows.
-/
import proofs.«172672_j70489003262548_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Idealize.ShloMosaic Idealize.ShloMosaic.ValueIdx Cert.KernelIdeal Cert.KernelIdeal.Gen
open scoped BigOperators

/-- The index the reduction over the row axis inserts row `r` into, at column `q`, is `(r, q)`. -/
theorem lift_rows (h : S10000x128.Reduces [0] S128) (q : Fin 128) (r : Fin 10000) :
    h.lift (ix1 q) r = ix2 r q := by
  funext a
  match a with
  | ⟨0, _⟩ => exact Fin.ext rfl
  | ⟨1, _⟩ => exact Fin.ext rfl

/-- The block with the bias row added, at `(r, q)`. -/
theorem biased_apply (x0 : FVec Ideal S10000x128 .f32) (x1 : FVec Ideal S1x128 .f32)
    (hb : S1x128.Broadcasts S10000x128) (r : Fin 10000) (q : Fin 128) :
    addf x0 (broadcastTo S10000x128 x1 hb) (ix2 r q) = x0 (ix2 r q) + x1 (ix2 (0 : Fin 1) q) :=
  congrArg (x0 (ix2 r q) + ·) (broadcastTo_1b_ab_apply x1 hb r q)

/-- A reduction over the row axis of a `[10000, 128]` array, cast to `[1, 128]`, at `(0, q)`: the sum over the
    rows of column `q`. The proofs the reduction carries are typed as a printed body spells them. -/
theorem rowsum_apply (v : FVec Ideal S10000x128 .f32) (h : S10000x128.Reduces [0] S128)
    (hφ : FKind.Formats .f32) (hacc : (0x00000000#32 : BitVec 32) = FKind.add.neutral .f32 hφ)
    (hc : S128.ShapeCasts S1x128) (q : Fin 128) :
    shapeCast S1x128 (multiReduction .add [0] S128 v 0x00000000#32 h hφ hacc) hc (ix2 (0 : Fin 1) q)
      = ∑ r : Fin 10000, v (ix2 r q) := by
  refine (shapeCast_a_1a_apply _ hc (0 : Fin 1) q).trans ?_
  refine (Ideal.multiReduction_add_single v 0x00000000#32 h hφ hacc (ix1 q)).trans ?_
  exact Finset.sum_congr rfl (fun r _ => congrArg v (lift_rows h q r))

/-- ROW 0 OF THE STEP: the accumulator plus the column sum of the biased block. -/
theorem pay1_apply0 (x0 : FVec Ideal S10000x128 .f32) (x1 : FVec Ideal S1x128 .f32) (acc : FVec Ideal S2x128 .f32)
    (q : Fin 128) :
    k1_pay2 (F := Ideal) x0 x1 acc (ix2 (0 : Fin 2) q)
      = acc (ix2 (0 : Fin 2) q) + ∑ r : Fin 10000, (x0 (ix2 r q) + x1 (ix2 (0 : Fin 1) q)) := by
  unfold k1_pay2
  rw [shapeCast_self x0 shapeCasts_S10000x128_S10000x128, shapeCast_self x1 shapeCasts_S1x128_S1x128,
    shapeCast_self acc shapeCasts_S2x128_S2x128]
  refine congrArg (acc (ix2 (0 : Fin 2) q) + ·) ?_
  refine (concatenate_pair_apply_left (t := S2x128) (s₁ := S1x128) (s₂ := S1x128) (0 : Fin 2) _ _ concatenates_S1x128_S1x128_S2x128_d0 (ix2 (0 : Fin 2) q) rfl
    (ix2 (0 : Fin 1) q) (fun b => ?_)).trans ?_
  · match b with
    | ⟨0, _⟩ => rfl
    | ⟨1, _⟩ => rfl
  refine (rowsum_apply _ _ _ _ _ q).trans ?_
  exact Finset.sum_congr rfl (fun r _ => biased_apply x0 x1 _ r q)

/-- ROW 1 OF THE STEP: the accumulator plus the column sum of squares of the biased block. -/
theorem pay1_apply1 (x0 : FVec Ideal S10000x128 .f32) (x1 : FVec Ideal S1x128 .f32) (acc : FVec Ideal S2x128 .f32)
    (q : Fin 128) :
    k1_pay2 (F := Ideal) x0 x1 acc (ix2 (1 : Fin 2) q)
      = acc (ix2 (1 : Fin 2) q) + ∑ r : Fin 10000,
          (x0 (ix2 r q) + x1 (ix2 (0 : Fin 1) q)) * (x0 (ix2 r q) + x1 (ix2 (0 : Fin 1) q)) := by
  unfold k1_pay2
  rw [shapeCast_self x0 shapeCasts_S10000x128_S10000x128, shapeCast_self x1 shapeCasts_S1x128_S1x128,
    shapeCast_self acc shapeCasts_S2x128_S2x128]
  refine congrArg (acc (ix2 (1 : Fin 2) q) + ·) ?_
  refine (concatenate_pair_apply_right (t := S2x128) (s₁ := S1x128) (s₂ := S1x128) (0 : Fin 2) _ _ concatenates_S1x128_S1x128_S2x128_d0 (ix2 (1 : Fin 2) q) rfl rfl
    (ix2 (0 : Fin 1) q) (fun b hb => ?_) rfl).trans ?_
  · match b with
    | ⟨0, _⟩ => exact absurd rfl hb
    | ⟨1, _⟩ => rfl
  refine (rowsum_apply _ _ _ _ _ q).trans ?_
  refine Finset.sum_congr rfl (fun r _ => ?_)
  show addf x0 _ (ix2 r q) * addf x0 _ (ix2 r q) = _
  rw [biased_apply x0 x1 _ r q]

/-- THE INITIAL VALUE: zero everywhere. -/
theorem zero1_apply (s : Fin 2) (q : Fin 128) : k1_pay1 (F := Ideal) (ix2 s q) = 0 :=
  Ideal.ofBits_zero_f32

end Cert.KernelIdeal.KVal

end
-- ==== Proof.BlockSum.lean ====
/-
  SUMS BY BLOCKS, AND A RUNNING SUM IN CLOSED FORM.

  Two facts about finite sums in a commutative additive monoid:

  * a sum over `a * b` consecutive positions is the sum over the `a` blocks of `b` consecutive positions of each
    block's sum: position `b * t + r` is position `r` of block `t` (`sum_blocks`, and its instance for ten blocks of
    ten thousand, `sum_blocks_10_10000`);

  * a sequence that starts at `z + g 0` and adds `g (n + 1)` at step `n + 1` is, at `n`, `z` plus the sum of
    `g 0, …, g n` (`running_sum`, and at `n = 9` as a sum over `Fin 10`, `running_sum_fin10`).
-/
import Mathlib

open scoped BigOperators

namespace Cert.BlockSum

variable {M : Type} [AddCommMonoid M]

/-- Position `r` of block `t`, among `a` blocks of `b`, is one of the `a * b` positions. -/
theorem blk_lt {a b : Nat} (t : Fin a) (r : Fin b) : b * t.val + r.val < a * b := by
  have h1 : b * t.val + r.val < b * (t.val + 1) := by
    rw [Nat.mul_succ]
    exact Nat.add_lt_add_left r.isLt _
  have h2 : b * (t.val + 1) ≤ b * a := Nat.mul_le_mul_left b t.isLt
  calc b * t.val + r.val < b * (t.val + 1) := h1
    _ ≤ b * a := h2
    _ = a * b := Nat.mul_comm b a

/-- A SUM BY BLOCKS: the sum over `a * b` positions is the double sum over the block `t` and the position `r` in
    the block, position `(t, r)` being `b * t + r`. The pairs `(t, r)` are in bijection with the positions. -/
theorem sum_blocks (a b : Nat) (f : Fin (a * b) → M) :
    ∑ t : Fin a, ∑ r : Fin b, f ⟨b * t.val + r.val, blk_lt t r⟩ = ∑ R : Fin (a * b), f R := by
  rw [← Equiv.sum_comp finProdFinEquiv f, Fintype.sum_prod_type]
  refine Finset.sum_congr rfl (fun t _ => Finset.sum_congr rfl (fun r _ => congrArg f (Fin.ext ?_)))
  show b * t.val + r.val = r.val + b * t.val
  exact Nat.add_comm _ _

/-- Ten blocks of ten thousand. -/
theorem sum_blocks_10_10000 (f : Fin 100000 → M) :
    ∑ t : Fin 10, ∑ r : Fin 10000, f ⟨10000 * t.val + r.val, by omega⟩ = ∑ R : Fin 100000, f R :=
  sum_blocks 10 10000 f

/-- A RUNNING SUM IN CLOSED FORM: if `c 0 = z + g 0` and `c (n + 1) = c n + g (n + 1)` then
    `c n = z + (g 0 + … + g n)`. -/
theorem running_sum (z : M) (g c : ℕ → M) (h0 : c 0 = z + g 0) (hs : ∀ n, c (n + 1) = c n + g (n + 1)) (n : ℕ) :
    c n = z + ∑ t ∈ Finset.range (n + 1), g t := by
  induction n with
  | zero => rw [h0, Finset.sum_range_one]
  | succ k ih => rw [hs, ih, Finset.sum_range_succ g (k + 1), add_assoc]

/-- The same when the step is known only below a bound `m`. -/
theorem running_sum_le (z : M) (g c : ℕ → M) (m : ℕ) (h0 : c 0 = z + g 0)
    (hs : ∀ n, n < m → c (n + 1) = c n + g (n + 1)) (n : ℕ) (hn : n ≤ m) :
    c n = z + ∑ t ∈ Finset.range (n + 1), g t := by
  induction n with
  | zero => rw [h0, Finset.sum_range_one]
  | succ k ih => rw [hs k (Nat.lt_of_succ_le hn), ih (Nat.le_of_succ_le hn), Finset.sum_range_succ g (k + 1), add_assoc]

/-- At the tenth term, as a sum over `Fin 10`. -/
theorem running_sum_fin10 (z : M) (g c : ℕ → M) (h0 : c 0 = z + g 0) (hs : ∀ n, c (n + 1) = c n + g (n + 1)) :
    c 9 = z + ∑ t : Fin 10, g t.val := by
  rw [running_sum z g c h0 hs 9, Fin.sum_univ_eq_sum_range]

/-- The same when the step is known only for the nine steps taken. -/
theorem running_sum_fin10_le (z : M) (g c : ℕ → M) (h0 : c 0 = z + g 0)
    (hs : ∀ n, n < 9 → c (n + 1) = c n + g (n + 1)) :
    c 9 = z + ∑ t : Fin 10, g t.val := by
  rw [running_sum_le z g c 9 h0 hs 9 (Nat.le_refl 9), Fin.sum_univ_eq_sum_range]

end Cert.BlockSum
-- ==== Proof.BnSpec.lean ====
/-
  THE NORMALISED ENTRY, as one function of a matrix o : [100000, 128] and two vectors g, be : [128] over the extended
  reals: with μ the column's sum over the row count and σ the column's sum of squares over the row count less μ²,
      max ( ((o(R, q) − μ) · rsqrt (σ + ε)) · g(q) + be(q) , 0 ).
  The row count, ε and 0 are kept as the float words the programs print (100000.0, 1e-5 rounded, +0.0); sums are
  written with their zero start, as a reduction reads.
-/
import Idealize.ShloMosaic.PureOps.Ideal
import Idealize.ShloMosaic.Lib.ValueIdx

noncomputable section

open scoped BigOperators

namespace Cert.BnSpec

open Idealize.ShloMosaic Idealize.ShloMosaic.ValueIdx

/-- Column `q`'s mean: the sum over the rows, from zero, over the row count. -/
def mu (o : (⟨2, ![100000, 128]⟩ : Shape).Idx → EReal) (q : Fin 128) : EReal :=
  Ideal.div ((0 : EReal) + ∑ R : Fin 100000, o (ix2 R q)) (Ideal.ofBits .f32 0x47C35000#32)

/-- Column `q`'s variance in the form "mean of squares less squared mean". -/
def sigma (o : (⟨2, ![100000, 128]⟩ : Shape).Idx → EReal) (q : Fin 128) : EReal :=
  Ideal.div ((0 : EReal) + ∑ R : Fin 100000, o (ix2 R q) * o (ix2 R q)) (Ideal.ofBits .f32 0x47C35000#32) - mu o q * mu o q

/-- The normalised, scaled, shifted and rectified entry `(R, q)`. -/
def nf (o : (⟨2, ![100000, 128]⟩ : Shape).Idx → EReal) (g be : (⟨1, ![128]⟩ : Shape).Idx → EReal) (R : Fin 100000) (q : Fin 128) : EReal :=
  max (((o (ix2 R q) - mu o q) * Ideal.rsqrt (sigma o q + Ideal.ofBits .f32 0x3727C5AC#32)) * g (ix1 q) + be (ix1 q))
    (Ideal.ofBits .f32 0x00000000#32)

/-- It depends on the matrix only through its entries. -/
theorem nf_congr {o o' : (⟨2, ![100000, 128]⟩ : Shape).Idx → EReal} (h : ∀ (R : Fin 100000) (q : Fin 128), o (ix2 R q) = o' (ix2 R q))
    (g be : (⟨1, ![128]⟩ : Shape).Idx → EReal) (R : Fin 100000) (q : Fin 128) : nf o g be R q = nf o' g be R q := by
  have e : o = o' := funext fun i => by rw [eq_ix2 i]; exact h _ _
  rw [e]

end Cert.BnSpec

end
-- ==== Proof.KEntry.lean ====
/-
  The kernel's result, entry by entry, in the normal form.

  Row 0 of the statistics is, column by column, the sum over all 100000 rows of (aggregated entry + bias): the ten
  points add their blocks' partial sums onto zero, and ten consecutive blocks of 10000 rows are the 100000 rows. Row 1
  is the same sum of squares. The mean row divides row 0 by the row count, the variance row divides row 1 by it and
  subtracts the mean's square; the normalisation pipeline then applies the entry formula. Together: entry (R, q) of
  the result is the normal form of the matrix "aggregated + bias" with the scale and shift vectors.
-/
import proofs.«172672_j70489003262548_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«172672_j70489003262548_1_alg».proof.Proof.KHost
import proofs.«172672_j70489003262548_1_alg».proof.Proof.KStatsPay
import proofs.«172672_j70489003262548_1_alg».proof.Proof.BlockSum
import proofs.«172672_j70489003262548_1_alg».proof.Proof.BnSpec

set_option maxRecDepth 16384

noncomputable section

open scoped BigOperators

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen

/-- A running sum over ten consecutive blocks of 10000 is the sum over all 100000: if `a 0` is zero plus block 0's sum
    and each `a (n + 1)` adds block `n + 1`'s sum onto `a n`, then `a 9` is zero plus the whole sum. -/
theorem chain_sum (a : (n : ℕ) → n < 10 → EReal) (f : Fin 100000 → EReal)
    (h0 : a 0 (by omega) = 0 + ∑ r : Fin 10000, f ⟨10000 * 0 + r.val, by omega⟩)
    (hs : ∀ (n : ℕ) (h : n + 1 < 10), a (n + 1) h = a n (by omega) + ∑ r : Fin 10000, f ⟨10000 * (n + 1) + r.val, by omega⟩) :
    a 9 (by omega) = 0 + ∑ R : Fin 100000, f R := by
  let g : ℕ → EReal := fun n => if h : n < 10 then ∑ r : Fin 10000, f ⟨10000 * n + r.val, by omega⟩ else 0
  have key : ∀ (n : ℕ) (h : n < 10), a n h = 0 + ∑ t ∈ Finset.range (n + 1), g t := by
    intro n
    induction n with
    | zero =>
      intro h
      rw [h0, Finset.sum_range_one]
      show _ = 0 + (if h : 0 < 10 then ∑ r : Fin 10000, f ⟨10000 * 0 + r.val, by omega⟩ else 0)
      rw [dif_pos (by omega)]
    | succ n ih =>
      intro h
      rw [hs n h, ih (by omega), Finset.sum_range_succ _ (n + 1), add_assoc]
      show _ = 0 + (_ + (if h : n + 1 < 10 then ∑ r : Fin 10000, f ⟨10000 * (n + 1) + r.val, by omega⟩ else 0))
      rw [dif_pos h]
  rw [key 9 (by omega), ← Cert.BlockSum.sum_blocks_10_10000 f, ← Fin.sum_univ_eq_sum_range g 10]
  refine congrArg (0 + ·) (Finset.sum_congr rfl fun t _ => ?_)
  show (if h : t.val < 10 then ∑ r : Fin 10000, f ⟨10000 * t.val + r.val, by omega⟩ else 0) = _
  rw [dif_pos t.isLt]

section Stats
variable (V : (c : Dev nD) → (b : Ref sig .tc) → Buf (Elt Ideal) ((c : Thread nD τ).loc b))

/-- The statistics pipeline's index maps over the grid: the matrix window at block row `t`, the bias window at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- Point `t`'s matrix block holds rows `10000 t …` of the aggregated matrix. -/
theorem iblk1_raw (c : Dev nD) (raw : FVec Ideal S100000x128 .f32) (hraw : (V c main_v42 : FVec Ideal S100000x128 .f32) = raw)
    (t : Fin cfg1.N) (r : Fin 10000) (q : Fin 128) (h : 10000 * t.val + r.val < 100000) :
    (iblk1 V c 0 t : FVec Ideal S10000x128 .f32) (ix2 r q) = raw (ix2 (⟨10000 * t.val + r.val, h⟩ : Fin 100000) q) := by
  obtain ⟨e00, e01, -⟩ := idx_facts1 t
  rw [← hraw]
  show V c main_v42 (((cfg1.win 0).blk t).view.emb (ix2 r q)) = _
  refine congrArg _ (funext fun a => Fin.ext ?_)
  match a with
  | ⟨0, _⟩ => show win1_0.index t (0 : Fin 2) * 10000 + 1 * r.val = 10000 * t.val + r.val; rw [e00]; omega
  | ⟨1, _⟩ => show win1_0.index t (1 : Fin 2) * 128 + 1 * q.val = q.val; rw [e01]; omega

/-- Every point's bias block is the bias row. -/
theorem iblk1_b (c : Dev nD) (bb : FVec Ideal S1x128 .f32) (hb : (V c main_v43 : FVec Ideal S1x128 .f32) = bb)
    (t : Fin cfg1.N) : (iblk1 V c 1 t : FVec Ideal S1x128 .f32) = bb := by
  obtain ⟨-, -, e10, e11⟩ := idx_facts1 t
  rw [← hb]
  funext y
  show V c main_v43 (((cfg1.win 1).blk t).view.emb y) = V c main_v43 y
  refine congrArg _ (funext fun a => Fin.ext ?_)
  match a with
  | ⟨0, _⟩ => show win1_1.index t (0 : Fin 2) * 1 + 1 * (y 0).val = (y 0).val; rw [e10]; omega
  | ⟨1, _⟩ => show win1_1.index t (1 : Fin 2) * 128 + 1 * (y 1).val = (y 1).val; rw [e11]; omega

theorem lt_N1 {n : ℕ} (h : n < 10) : n < cfg1.N := by show n < grid1.N; rw [N_1]; exact h

/-- Row 0 of the statistics at column `q`: zero plus the sum over all rows of (aggregated entry + bias). -/
theorem stats_row0 (c : Dev nD) (raw : FVec Ideal S100000x128 .f32) (hraw : (V c main_v42 : FVec Ideal S100000x128 .f32) = raw)
    (bb : FVec Ideal S1x128 .f32) (hb : (V c main_v43 : FVec Ideal S1x128 .f32) = bb) (q : Fin 128) :
    (result1 V c : FVec Ideal S2x128 .f32) (ix2 (0 : Fin 2) q)
      = 0 + ∑ R : Fin 100000, (raw (ix2 R q) + bb (ix2 (0 : Fin 1) q)) := by
  refine chain_sum (fun n h => statsChain V c n (lt_N1 h) (ix2 (0 : Fin 2) q))
    (fun R => raw (ix2 R q) + bb (ix2 (0 : Fin 1) q)) ?_ ?_
  · show k1_pay2 (F := Ideal) (iblk1 V c 0 ⟨0, _⟩) (iblk1 V c 1 ⟨0, _⟩) zero1 (ix2 (0 : Fin 2) q) = _
    refine (pay1_apply0 (iblk1 V c 0 ⟨0, lt_N1 (by omega)⟩) (iblk1 V c 1 ⟨0, lt_N1 (by omega)⟩) zero1 q).trans ?_
    rw [show (zero1 : FVec Ideal S2x128 .f32) (ix2 (0 : Fin 2) q) = 0 from zero1_apply 0 q, iblk1_b V c bb hb]
    refine congrArg (0 + ·) (Finset.sum_congr rfl fun r _ => ?_)
    rw [iblk1_raw V c raw hraw ⟨0, lt_N1 (by omega)⟩ r q (by show 10000 * 0 + r.val < 100000; omega)]
  · intro n h
    show k1_pay2 (F := Ideal) (iblk1 V c 0 ⟨n + 1, _⟩) (iblk1 V c 1 ⟨n + 1, _⟩) (statsChain V c n _) (ix2 (0 : Fin 2) q) = _
    refine (pay1_apply0 (iblk1 V c 0 ⟨n + 1, lt_N1 h⟩) (iblk1 V c 1 ⟨n + 1, lt_N1 h⟩) (statsChain V c n (lt_N1 (by omega))) q).trans ?_
    rw [iblk1_b V c bb hb]
    refine congrArg (statsChain V c n (lt_N1 (by omega)) (ix2 (0 : Fin 2) q) + ·) (Finset.sum_congr rfl fun r _ => ?_)
    rw [iblk1_raw V c raw hraw ⟨n + 1, lt_N1 h⟩ r q (by show 10000 * (n + 1) + r.val < 100000; omega)]

/-- Row 1 of the statistics at column `q`: zero plus the sum over all rows of (aggregated entry + bias) squared. -/
theorem stats_row1 (c : Dev nD) (raw : FVec Ideal S100000x128 .f32) (hraw : (V c main_v42 : FVec Ideal S100000x128 .f32) = raw)
    (bb : FVec Ideal S1x128 .f32) (hb : (V c main_v43 : FVec Ideal S1x128 .f32) = bb) (q : Fin 128) :
    (result1 V c : FVec Ideal S2x128 .f32) (ix2 (1 : Fin 2) q)
      = 0 + ∑ R : Fin 100000, (raw (ix2 R q) + bb (ix2 (0 : Fin 1) q)) * (raw (ix2 R q) + bb (ix2 (0 : Fin 1) q)) := by
  refine chain_sum (fun n h => statsChain V c n (lt_N1 h) (ix2 (1 : Fin 2) q))
    (fun R => (raw (ix2 R q) + bb (ix2 (0 : Fin 1) q)) * (raw (ix2 R q) + bb (ix2 (0 : Fin 1) q))) ?_ ?_
  · show k1_pay2 (F := Ideal) (iblk1 V c 0 ⟨0, _⟩) (iblk1 V c 1 ⟨0, _⟩) zero1 (ix2 (1 : Fin 2) q) = _
    refine (pay1_apply1 (iblk1 V c 0 ⟨0, lt_N1 (by omega)⟩) (iblk1 V c 1 ⟨0, lt_N1 (by omega)⟩) zero1 q).trans ?_
    rw [show (zero1 : FVec Ideal S2x128 .f32) (ix2 (1 : Fin 2) q) = 0 from zero1_apply 1 q, iblk1_b V c bb hb]
    refine congrArg (0 + ·) (Finset.sum_congr rfl fun r _ => ?_)
    rw [iblk1_raw V c raw hraw ⟨0, lt_N1 (by omega)⟩ r q (by show 10000 * 0 + r.val < 100000; omega)]
  · intro n h
    show k1_pay2 (F := Ideal) (iblk1 V c 0 ⟨n + 1, _⟩) (iblk1 V c 1 ⟨n + 1, _⟩) (statsChain V c n _) (ix2 (1 : Fin 2) q) = _
    refine (pay1_apply1 (iblk1 V c 0 ⟨n + 1, lt_N1 h⟩) (iblk1 V c 1 ⟨n + 1, lt_N1 h⟩) (statsChain V c n (lt_N1 (by omega))) q).trans ?_
    rw [iblk1_b V c bb hb]
    refine congrArg (statsChain V c n (lt_N1 (by omega)) (ix2 (1 : Fin 2) q) + ·) (Finset.sum_congr rfl fun r _ => ?_)
    rw [iblk1_raw V c raw hraw ⟨n + 1, lt_N1 h⟩ r q (by show 10000 * (n + 1) + r.val < 100000; omega)]

end Stats

/-- The mean row at column `q`: row 0 of the statistics over the row count. -/
theorem kMean_apply (st : (⟨S2x128, .f32⟩ : BufTy).Contents (Elt Ideal)) (q : Fin 128) :
    kMean st (ix2 (0 : Fin 1) q) = Ideal.div (st (ix2 (0 : Fin 2) q)) (Ideal.ofBits .f32 0x47C35000#32) := by
  unfold kMean
  show Ideal.div (extractStridedSlice S1x128 ![0, 0] st slices_S2x128_S1x128_0_0 (ix2 (0 : Fin 1) q)) _ = _
  rw [slice2_axis0_apply 0 st slices_S2x128_S1x128_0_0 (0 : Fin 1) q (0 : Fin 2) rfl]
  rfl

/-- The variance row at column `q`: row 1 of the statistics over the row count, less the mean's square. -/
theorem kVar_apply (st : (⟨S2x128, .f32⟩ : BufTy).Contents (Elt Ideal)) (q : Fin 128) :
    kVar st (ix2 (0 : Fin 1) q) = Ideal.div (st (ix2 (1 : Fin 2) q)) (Ideal.ofBits .f32 0x47C35000#32)
      - kMean st (ix2 (0 : Fin 1) q) * kMean st (ix2 (0 : Fin 1) q) := by
  unfold kVar
  show Ideal.div (extractStridedSlice S1x128 ![1, 0] st slices_S2x128_S1x128_1_0 (ix2 (0 : Fin 1) q)) _ - _ = _
  rw [slice2_axis0_apply 1 st slices_S2x128_S1x128_1_0 (0 : Fin 1) q (1 : Fin 2) rfl]
  rfl

section Entry
variable (m : (ℓ : Loc nD τ sig) → Buf (Elt Ideal) ℓ) (ρ : Dev nD → PrngReg)

/-- The matrix the statistics and the normalisation see: the aggregation of the product along the edges, plus the
    bias on every row. -/
def kO (c : Dev nD) : (⟨2, ![100000, 128]⟩ : Shape).Idx → EReal :=
  fun i => (kRaw (xwOf (m ((c : Thread nD τ).loc main_arg0)) (m ((c : Thread nD τ).loc main_arg2))) (m ((c : Thread nD τ).loc main_arg1)) : FVec Ideal S100000x128 .f32) i
    + ((m ((c : Thread nD τ).loc main_arg3)) : FVec Ideal S128 .f32) (ix1 (⟨(i 1).val, (i 1).isLt⟩ : Fin 128))

theorem kO_apply (c : Dev nD) (R : Fin 100000) (q : Fin 128) :
    kO m c (ix2 R q) = (kRaw (xwOf (m ((c : Thread nD τ).loc main_arg0)) (m ((c : Thread nD τ).loc main_arg2))) (m ((c : Thread nD τ).loc main_arg1)) : FVec Ideal S100000x128 .f32) (ix2 R q)
      + ((m ((c : Thread nD τ).loc main_arg3)) : FVec Ideal S128 .f32) (ix1 q) := rfl

/-- ENTRY (R, q) OF THE KERNEL'S RESULT is the normal form of that matrix with the scale and shift vectors. -/
theorem kernel_entry (c : Dev nD) (R : Fin 100000) (q : Fin 128) :
    (W6 m ρ c (Proc.devRef .tc main_v55) : FVec Ideal S100000x128 .f32) (ix2 R q)
      = Cert.BnSpec.nf (kO m c) (m ((c : Thread nD τ).loc main_arg4)) (m ((c : Thread nD τ).loc main_arg5)) R q := by
  have hraw : (V3 m ρ c main_v42 : FVec Ideal S100000x128 .f32) = kRaw (xwOf (m ((c : Thread nD τ).loc main_arg0)) (m ((c : Thread nD τ).loc main_arg2))) (m ((c : Thread nD τ).loc main_arg1)) := W3_raw m ρ c
  have hb : (V3 m ρ c main_v43 : FVec Ideal S1x128 .f32) = shapeCast S1x128 (m ((c : Thread nD τ).loc main_arg3)) shapeCasts_S128_S1x128 := W3_b m ρ c
  rw [W6_result, G2_apply, kVar_apply, kMean_apply, stats_row0 (V3 m ρ) c _ hraw _ hb q, stats_row1 (V3 m ρ) c _ hraw _ hb q]
  rw [shapeCast_a_1a_apply (m ((c : Thread nD τ).loc main_arg3)), shapeCast_a_1a_apply (m ((c : Thread nD τ).loc main_arg4)), shapeCast_a_1a_apply (m ((c : Thread nD τ).loc main_arg5))]
  rfl

end Entry

end Cert.KernelIdeal.KVal

end
-- ==== Proof.LibRowGatherScatter.lean ====
/-
  A ROW GATHER AND A ROW SCATTER-ADD, READ AT AN INDEX.

  Two host-side indexing operations on a matrix whose rows are addressed by a column of integer row numbers:

  * the gather `x[idx]` of `x : [N, C]` at `idx : [E, 1]`: result row `e` is operand row `idx[e, 0]`, the row number
    read signed and CLAMPED into `[0, N − 1]` (`rowGatherDims`, `gather_rows_apply`); and its rank-1 companion, the
    gather of a flat `x : [N]` at the same kind of index column (`takeRowDims`, `gather_take1_apply`);

  * the segment sum of update rows `upd : [E, C]` by segment numbers `seg : [E, 1]` into `[N, C]`: an accumulating
    scatter in which update row `e` is added onto operand row `seg[e, 0]`, the number read signed and NOT clamped — an
    update whose number is outside `[0, N)` is dropped —, the column kept (`rowScatterDims`, `rowScatter_resultIdx`,
    `hostScatterAdd_rows_apply`). At the exact instance (extended reals) the result at `(n, k)` is the operand's
    element plus the sum, over the update rows `e` whose number is `n`, of `upd[e, k]`.

  Both are statements about the dimension numbers alone: the gather lemma holds for any element type, the scatter
  lemma for the exact accumulating scatter. Nothing here mentions a program.
-/
import Idealize.ShloMosaic.PureOps.Ideal
import Idealize.ShloMosaic.Lib.ValueIdx

noncomputable section

open scoped BigOperators

namespace Idealize.ShloMosaic.RowGatherScatter

open Idealize.ShloMosaic Idealize.ShloMosaic.ValueIdx

/-- An axis of a rank-2 shape is the first or the second. -/
theorem fin2_cases (a : Fin 2) : a = 0 ∨ a = 1 := by
  rcases a with ⟨v, hv⟩
  interval_cases v
  · exact Or.inl rfl
  · exact Or.inr rfl

/-! ## A row gather: `x[idx]` of a matrix at a column of row numbers

For `x : [N, C]` and integer row numbers `idx : [E, 1]`, `x[idx[:, 0]]` is a gather whose slices are whole rows:
offset_dims `[1]` (the result's column axis is the slice's), collapsed_slice_dims `[0]` (the operand's row axis has
slice size 1 and disappears), start_index_map `[0]` (the one component of a start index is a row number),
index_vector_dim `1` and slice_sizes `[1, C]`. Result element `(e, j)` is the operand at row `idx[e, 0]` — read as
a signed integer and clamped into `[0, N − 1]`, as a gather clamps every start index — and column `j`. -/

section Gather
variable {α : Type}

/-- Those dimension numbers for an operand `[N, C]`, start indices `[E, 1]` and result `[E, C]`; their conditions
    `wf` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand at row `idx[e, 0]` (signed, clamped into `[0, N − 1]`) and
    column `j`. On the row axis the operand coordinate is the clamped start alone (the axis is collapsed: no offset,
    and there are no batching axes); on the column axis the start is `0` (the axis is not in the start index map)
    and the offset is the result's column coordinate. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGatherDims N E C wf) x idx (ix2 e j)
      = x (ix2 ⟨min (idx (ix2 e 0)).toInt.toNat (N - 1), by omega⟩ j) := by
  unfold Host.gather
  congr 1
  funext a
  refine Fin.ext ?_
  show (rowGatherDims N E C wf).start (ix2 e j) idx a + (rowGatherDims N E C wf).batchCoord (ix2 e j) a
    + (rowGatherDims N E C wf).offCoord (ix2 e j) a = _
  rw [GatherDims.batchCoord_eq_zero _ _ _ List.not_mem_nil]
  rcases fin2_cases a with rfl | rfl
  · -- the row axis: collapsed, so no offset; the start is the clamped row number
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e j) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · -- the column axis: not a start-index axis, so the start is 0; the offset is the result's column
    have h1 : (1 : Fin 2) ∉ (rowGatherDims N E C wf).startIndexMap := by
      show (1 : Fin 2) ∉ ([0] : List (Fin 2)); decide
    have hk : (1 : Fin 2) ∈ (rowGatherDims N E C wf).sKept := by
      rw [GatherDims.mem_sKept]
      show (1 : Fin 2) ∉ ([0] : List (Fin 2)) ∧ (1 : Fin 2) ∉ ([] : List (Fin 2)); decide
    unfold GatherDims.start GatherDims.offCoord
    rw [dif_neg h1, dif_pos hk]
    simp only [Nat.zero_add]
    rfl

end Gather

/-! ## A row scatter-add: a segment sum of update rows into a matrix

For updates `upd : [E, C]` and integer segment numbers `seg : [E, 1]`, the segment sum into `[N, C]` is an
accumulating scatter whose windows are whole rows: update_window_dims `[1]` (the updates' column axis is the window's),
inserted_window_dims `[0]` (the operand's row axis has window size 1), scatter_dims_to_operand_dims `[0]` (the one
component of a scatter index is a row number) and index_vector_dim `1`. Update element `(e, j)` lands on operand
element `(seg[e, 0], j)` when that row number, read signed, is in `[0, N)`, and nowhere otherwise. -/

section Scatter

/-- Those dimension numbers for an operand `[N, C]`, scatter indices `[E, 1]` and updates `[E, C]`; their conditions
    `wf` are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the segment number of the update's row, read signed. -/
theorem rowScatter_start0 (idx : IVec ⟨2, ![E, 1]⟩ w) (e : Fin E) (j : Fin C) :
    (rowScatterDims N E C wf).start (ix2 e j) idx (0 : Fin 2) = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e j)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis (not named by the scatter-dims map) the window starts at `0`. -/
theorem rowScatter_start1 (idx : IVec ⟨2, ![E, 1]⟩ w) (e : Fin E) (j : Fin C) :
    (rowScatterDims N E C wf).start (ix2 e j) idx (1 : Fin 2) = 0 := by
  unfold ScatterDims.start
  rw [dif_neg (show (1 : Fin 2) ∉ ([0] : List (Fin 2)) by decide)]

/-- The row axis is an inserted window axis: its window coordinate is `0`. -/
theorem rowScatter_window0 (e : Fin E) (j : Fin C) :
    (rowScatterDims N E C wf).window (ix2 e j) (0 : Fin 2) = 0 := by
  unfold ScatterDims.window
  rw [dif_neg]
  show (0 : Fin 2) ∉ (List.finRange 2).filter (· ∉ ([0] : List (Fin 2)))
  decide

/-- The column axis carries the updates' window axis: its window coordinate is the update's column. -/
theorem rowScatter_window1 (e : Fin E) (j : Fin C) :
    (rowScatterDims N E C wf).window (ix2 e j) (1 : Fin 2) = j.val := by
  unfold ScatterDims.window
  have hk : (1 : Fin 2) ∈ (rowScatterDims N E C wf).sKept := by
    show (1 : Fin 2) ∈ (List.finRange 2).filter (· ∉ ([0] : List (Fin 2)))
    decide
  rw [dif_pos hk]
  rfl

/-- WHERE AN UPDATE LANDS: update element `(e, j)` lands on operand element `(n, k)` exactly when its row's segment
    number, read signed, IS `n` and the columns agree. (A number outside `[0, N)` equals no `n : Fin N`: the update is
    dropped.) The landing index is start plus window coordinate on each axis — `seg[e, 0] + 0` on rows, `0 + j` on
    columns — provided both are in range. -/
theorem rowScatter_resultIdx (idx : IVec ⟨2, ![E, 1]⟩ w) (e : Fin E) (j : Fin C) (n : Fin N) (k : Fin C) :
    (rowScatterDims N E C wf).resultIdx? (ix2 e j) idx = some (ix2 n k)
      ↔ ((idx (ix2 e 0)).toInt = (n.val : Int) ∧ j = k) := by
  have hs0 := rowScatter_start0 wf idx e j
  have hs1 := rowScatter_start1 wf idx e j
  have hw0 := rowScatter_window0 wf e j
  have hw1 := rowScatter_window1 wf e j
  have hn : n.val < N := n.isLt
  have hj : j.val < C := j.isLt
  unfold ScatterDims.resultIdx?
  constructor
  · intro h
    split at h
    · rename_i hall
      have hf := Option.some.inj h
      have h0 := congrArg Fin.val (congrFun hf (0 : Fin 2))
      have h1 := congrArg Fin.val (congrFun hf (1 : Fin 2))
      have ha0 := (hall (0 : Fin 2)).1
      change ((rowScatterDims N E C wf).start (ix2 e j) idx (0 : Fin 2)
        + ((rowScatterDims N E C wf).window (ix2 e j) (0 : Fin 2) : Int)).toNat = n.val at h0
      change ((rowScatterDims N E C wf).start (ix2 e j) idx (1 : Fin 2)
        + ((rowScatterDims N E C wf).window (ix2 e j) (1 : Fin 2) : Int)).toNat = k.val at h1
      rw [hs0, hw0] at h0 ha0
      rw [hs1, hw1] at h1
      refine ⟨by omega, Fin.ext (by omega)⟩
    · exact absurd h (by simp)
  · rintro ⟨hz, rfl⟩
    have hall : ∀ a, 0 ≤ (rowScatterDims N E C wf).start (ix2 e j) idx a + ((rowScatterDims N E C wf).window (ix2 e j) a : Int)
        ∧ (rowScatterDims N E C wf).start (ix2 e j) idx a + ((rowScatterDims N E C wf).window (ix2 e j) a : Int)
          < ((⟨2, ![N, C]⟩ : Shape).size a : Int) := by
      intro a
      rcases fin2_cases a with rfl | rfl
      · rw [hs0, hw0, hz]
        show (0 : Int) ≤ (n.val : Int) + ((0 : Nat) : Int) ∧ (n.val : Int) + ((0 : Nat) : Int) < (N : Int)
        omega
      · rw [hs1, hw1]
        show (0 : Int) ≤ 0 + (j.val : Int) ∧ 0 + (j.val : Int) < (C : Int)
        omega
    rw [dif_pos hall]
    congr 1
    funext a
    refine Fin.ext ?_
    rcases fin2_cases a with rfl | rfl
    · show ((rowScatterDims N E C wf).start (ix2 e j) idx (0 : Fin 2)
        + ((rowScatterDims N E C wf).window (ix2 e j) (0 : Fin 2) : Int)).toNat = n.val
      rw [hs0, hw0, hz]; omega
    · show ((rowScatterDims N E C wf).start (ix2 e j) idx (1 : Fin 2)
        + ((rowScatterDims N E C wf).window (ix2 e j) (1 : Fin 2) : Int)).toNat = j.val
      rw [hs1, hw1]; omega

/-- THE ROW SCATTER-ADD READ AT `(n, k)`: the operand's element plus the sum over the update rows whose segment
    number is `n` of their column-`k` element. The sum over all update elements that land on `(n, k)` is split by
    update row and column; within a row only column `k` can land there, and it does iff the row's number is `n`. -/
theorem hostScatterAdd_rows_apply (x0 : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x0 idx upd (ix2 n k)
      = x0 (ix2 n k) + ∑ e : Fin E, if (idx (ix2 e 0)).toInt = (n.val : Int) then upd (ix2 e k) else 0 := by
  unfold Ideal.hostScatterAdd
  congr 1
  rw [Finset.sum_filter, sum_idx2]
  refine Finset.sum_congr rfl (fun e _ => ?_)
  simp only [rowScatter_resultIdx]
  by_cases hz : (idx (ix2 e 0)).toInt = (n.val : Int)
  · simp only [hz, true_and, if_true]
    rw [Finset.sum_ite_eq']
    simp
  · simp [hz]

end Scatter

/-! ## The rank-1 companion: a flat array gathered at a column of positions -/

section Take1
variable {α : Type}

/-- The dimension numbers of `x[idx[:, 0]]` for a flat operand `[N]`, start indices `[E, 1]` and result `[E]`: no
    offset axes, the operand's one axis collapsed, the one component of a start index a position, index_vector_dim
    `1`, slice size `1`. -/
abbrev takeRowDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at position `idx[e, 0]`, read signed and clamped into `[0, N − 1]`. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (takeRowDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (takeRowDims N E wf).start (ix1 e) idx 0 + (takeRowDims N E wf).batchCoord (ix1 e) 0
    + (takeRowDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeRowDims N E wf).startIndexMap from List.mem_singleton.mpr rfl)]
  have hsi : (takeRowDims N E wf).siIdx (ix1 e) ⟨List.idxOf (0 : Fin 1) (takeRowDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Take1

end Idealize.ShloMosaic.RowGatherScatter

end
-- ==== Proof.BnMath.lean ====
/-
  REAL-VALUEDNESS AND THE TWO FORMS OF A VARIANCE, OVER THE EXTENDED REALS.

  On the extended reals the two textbook forms of the variance of a finite family `o`,

      E[o²] − E[o]²      and      E[(o − E[o])²],

  agree when every `o i` is a real number, and need not otherwise (with an infinite entry one side is `⊥` and the
  other `⊤`). This file has the two halves of that argument:

  * `IsReal x`: the extended real `x` is (the image of) a real number. It is closed under sums, differences,
    products, finite sums, maxima, a choice by a condition, and division by a nonzero real; the reciprocal square root
    of `max x 1` is real for every extended real `x`; an entry of a matrix product of real matrices is real; a row
    gather of a real matrix is real, and a row scatter-add of real update rows onto a real matrix is real;

  * `var_identity`: for a real-valued family over a finite type with `n ≠ 0` elements, the two forms of the
    variance are equal (the sums divided by the real `n` with the exact instance's division).

  Last, three f32 patterns as extended reals (one, one hundred thousand, and a small constant that is only shown to be
  real), and a comparison "one hundred thousand minus zero is greater than zero" that is decided.

  Nothing here mentions a program.
-/
import Idealize.ShloMosaic.PureOps.Ideal
import Idealize.ShloMosaic.PureOps.Ideal.Laws
import Idealize.ShloMosaic.Lib.ValueIdx
import Mathlib
import proofs.«172672_j70489003262548_1_alg».proof.Proof.LibRowGatherScatter

noncomputable section

open scoped BigOperators

namespace Cert.BnMath

open Idealize.ShloMosaic Idealize.ShloMosaic.ValueIdx Idealize.ShloMosaic.RowGatherScatter

/-! ## Extended reals that are real numbers -/

/-- The extended real `x` is a real number (neither infinity). -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem isReal_one : IsReal (1 : EReal) := ⟨1, EReal.coe_one.symm⟩

/-- A sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The negative of a real is real. -/
theorem IsReal.neg {x : EReal} (hx : IsReal x) : IsReal (-x) := by
  obtain ⟨a, rfl⟩ := hx
  exact ⟨-a, (EReal.coe_neg a).symm⟩

/-- A finite sum of reals is real: by induction on the index set, from `isReal_zero` and `IsReal.add`. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih (fun i hi => h i (Finset.mem_insert_of_mem hi)))

/-- A choice between two reals is real. -/
theorem IsReal.ite {p : Prop} [Decidable p] {x y : EReal} (hx : IsReal x) (hy : IsReal y) :
    IsReal (if p then x else y) := by
  split
  · exact hx
  · exact hy

/-- The larger of two reals is real: it is one of the two. -/
theorem IsReal.max {x y : EReal} (hx : IsReal x) (hy : IsReal y) : IsReal (max x y) := by
  rcases max_choice x y with h | h
  · rw [h]; exact hx
  · rw [h]; exact hy

/-- The smaller of two reals is real: it is one of the two. -/
theorem IsReal.min {x y : EReal} (hx : IsReal x) (hy : IsReal y) : IsReal (min x y) := by
  rcases min_choice x y with h | h
  · rw [h]; exact hx
  · rw [h]; exact hy

/-- A real divided by a nonzero real is real: the quotient is the product with the reciprocal. -/
theorem IsReal.div_coe {x : EReal} (hx : IsReal x) {y : ℝ} (hy : y ≠ 0) : IsReal (Ideal.div x (y : EReal)) := by
  rw [Ideal.div_coe hy]
  exact hx.mul (isReal_coe _)

/-! ## The reciprocal square root of a value clamped below by one -/

/-- For EVERY extended real `x` the reciprocal square root of `max x 1` is real. If `x ≤ 1` the maximum is `1`
    and the value `(√1)⁻¹`; otherwise the maximum is `x ≥ 1`, which is either a positive real `r`, with value
    `(√r)⁻¹`, or `⊤`, whose reciprocal square root is `0`. -/
theorem isReal_rsqrt_max_one (x : EReal) : IsReal (Ideal.rsqrt (max x 1)) := by
  rcases le_total x 1 with h | h
  · rw [max_eq_right h, ← EReal.coe_one, Ideal.rsqrt_coe, if_neg (by norm_num), if_neg (by norm_num)]
    exact isReal_coe _
  · rw [max_eq_left h]
    induction x using EReal.rec with
    | bot =>
      have hlt : (⊥ : EReal) < 1 := by rw [← EReal.coe_one]; exact EReal.bot_lt_coe 1
      exact absurd h (not_le.mpr hlt)
    | top => rw [Ideal.rsqrt_top]; exact isReal_zero
    | coe r =>
      have hr : (1 : ℝ) ≤ r := by exact_mod_cast h
      rw [Ideal.rsqrt_coe, if_neg (by linarith), if_neg (by linarith)]
      exact isReal_coe _

/-! ## An entry of a matrix product -/

/-- A finite sum of products of reals — an entry of a product of two real matrices — is real. -/
theorem isReal_dot {K : Type} [Fintype K] (a b : K → EReal) (ha : ∀ k, IsReal (a k)) (hb : ∀ k, IsReal (b k)) :
    IsReal (∑ k, a k * b k) :=
  IsReal.sum _ _ (fun k _ => (ha k).mul (hb k))

/-! ## The two forms of the variance -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The identity on the reals: with `μ = S / n` the mean of `n` numbers `f i` of sum `S`,
    `∑ (f i − μ)² = ∑ (f i)² − 2 μ S + n μ²`, and `S = n μ`, so the mean of the squared deviations is the mean of the
    squares minus the squared mean. -/
theorem var_identity_real {ι : Type} [Fintype ι] (f : ι → ℝ) (n : ℝ) (hn : n ≠ 0)
    (hcard : (Fintype.card ι : ℝ) = n) :
    (∑ i, f i * f i) * (1 / n) - (∑ i, f i) * (1 / n) * ((∑ i, f i) * (1 / n))
      = (∑ i, (f i - (∑ j, f j) * (1 / n)) * (f i - (∑ j, f j) * (1 / n))) * (1 / n) := by
  have hexp : ∀ μ : ℝ, ∑ i, (f i - μ) * (f i - μ)
      = (∑ i, f i * f i) - 2 * μ * (∑ i, f i) + n * (μ * μ) := by
    intro μ
    have h1 : ∀ i, (f i - μ) * (f i - μ) = f i * f i - 2 * μ * f i + μ * μ := fun i => by ring
    simp only [h1, Finset.sum_add_distrib, Finset.sum_sub_distrib, ← Finset.mul_sum, Finset.sum_const,
      Finset.card_univ, nsmul_eq_mul, hcard]
    ring
  rw [hexp]
  field_simp
  ring

/-- THE VARIANCE IDENTITY. For a real-valued family `o` over a finite type with `n ≠ 0` elements,
    `E[o²] − E[o]² = E[(o − E[o])²]`, every mean a sum divided by the real `n`. Each side is the image of a real
    number: write `o i` as the image of `f i`, move the inclusion of the reals outward through the products, the
    differences, the finite sums and the divisions by `n` (products with `1 / n`), and the claim is the identity
    `var_identity_real`. -/
theorem var_identity {ι : Type} [Fintype ι] (o : ι → EReal) (ho : ∀ i, IsReal (o i)) (n : ℝ) (hn : n ≠ 0)
    (hcard : (Fintype.card ι : ℝ) = n) :
    Ideal.div (∑ i, o i * o i) (n : EReal) - Ideal.div (∑ i, o i) (n : EReal) * Ideal.div (∑ i, o i) (n : EReal)
      = Ideal.div (∑ i, (o i - Ideal.div (∑ j, o j) (n : EReal)) * (o i - Ideal.div (∑ j, o j) (n : EReal)))
          (n : EReal) := by
  choose f hf using ho
  obtain rfl : o = fun i => (f i : EReal) := funext hf
  -- the sum, the mean and the sum of squares are the images of the real ones
  have hS : ∑ i, (f i : EReal) = ((∑ i, f i : ℝ) : EReal) := (coe_sum _ _).symm
  have hμ : Ideal.div (∑ i, (f i : EReal)) (n : EReal) = (((∑ i, f i) * (1 / n) : ℝ) : EReal) := by
    rw [Ideal.div_coe hn, hS, ← EReal.coe_mul]
  have hQ : ∑ i, (f i : EReal) * (f i : EReal) = ((∑ i, f i * f i : ℝ) : EReal) := by
    rw [coe_sum]
    exact Finset.sum_congr rfl (fun i _ => (EReal.coe_mul _ _).symm)
  -- and so is the sum of the squared deviations from the mean
  have hD : ∑ i, ((f i : EReal) - (((∑ j, f j) * (1 / n) : ℝ) : EReal))
        * ((f i : EReal) - (((∑ j, f j) * (1 / n) : ℝ) : EReal))
      = ((∑ i, (f i - (∑ j, f j) * (1 / n)) * (f i - (∑ j, f j) * (1 / n)) : ℝ) : EReal) := by
    rw [coe_sum]
    refine Finset.sum_congr rfl (fun i _ => ?_)
    rw [← EReal.coe_sub, ← EReal.coe_mul]
  simp only [hμ]
  rw [hQ, hD, Ideal.div_coe hn, Ideal.div_coe hn, ← EReal.coe_mul, ← EReal.coe_mul, ← EReal.coe_mul,
    ← EReal.coe_sub, var_identity_real f n hn hcard]

/-- The same identity with every sum written as `0 + ∑`: the form in which a reduction with initial value `0`
    reads. -/
theorem var_identity_zero_add {ι : Type} [Fintype ι] (o : ι → EReal) (ho : ∀ i, IsReal (o i)) (n : ℝ) (hn : n ≠ 0)
    (hcard : (Fintype.card ι : ℝ) = n) :
    Ideal.div ((0 : EReal) + ∑ i, o i * o i) (n : EReal)
        - Ideal.div ((0 : EReal) + ∑ i, o i) (n : EReal) * Ideal.div ((0 : EReal) + ∑ i, o i) (n : EReal)
      = Ideal.div ((0 : EReal) + ∑ i, (o i - Ideal.div ((0 : EReal) + ∑ j, o j) (n : EReal))
          * (o i - Ideal.div ((0 : EReal) + ∑ j, o j) (n : EReal))) (n : EReal) := by
  simp only [zero_add]
  exact var_identity o ho n hn hcard

/-! ## A row gather and a row scatter-add of real matrices -/

section Rows
variable {N E C w : Nat}

/-- A row gather of a real matrix is real at every index: each result element IS an operand element (the one at the
    clamped row number and the same column). -/
theorem isReal_rowGather (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → EReal) (hx : ∀ i, IsReal (x i)) (idx : IVec ⟨2, ![E, 1]⟩ w)
    (j : (⟨2, ![E, C]⟩ : Shape).Idx) :
    IsReal (Host.gather (rowGatherDims N E C wf) x idx j) := by
  obtain ⟨e, c, rfl⟩ : ∃ (e : Fin E) (c : Fin C), j = ix2 e c := ⟨j 0, j 1, eq_ix2 j⟩
  rw [gather_rows_apply hN]
  exact hx _

/-- A flat gather of a real array is real at every index: each result element IS an operand element. -/
theorem isReal_take1 (hN : 0 < N)
    (wf : GatherDims.WF ⟨1, ![N]⟩ ⟨2, ![E, 1]⟩ ⟨1, ![E]⟩ [] [0] [] [0] [] 1 ![1])
    (x : (⟨1, ![N]⟩ : Shape).Idx → EReal) (hx : ∀ i, IsReal (x i)) (idx : IVec ⟨2, ![E, 1]⟩ w)
    (j : (⟨1, ![E]⟩ : Shape).Idx) :
    IsReal (Host.gather (takeRowDims N E wf) x idx j) := by
  obtain ⟨e, rfl⟩ : ∃ e : Fin E, j = ix1 e := ⟨j 0, eq_ix1 j⟩
  rw [gather_take1_apply hN]
  exact hx _

/-- A row scatter-add of real update rows onto a real matrix is real at every index: each result element is an
    operand element plus a finite sum of update elements (those of the rows whose segment number is the result's row;
    a row whose number is out of range is dropped and adds nothing). -/
theorem isReal_rowScatterAdd (wf : ScatterDims.WF ⟨2, ![N, C]⟩ ⟨2, ![E, 1]⟩ ⟨2, ![E, C]⟩ [1] [0] [0] 1)
    (x0 : (⟨2, ![N, C]⟩ : Shape).Idx → EReal) (hx0 : ∀ i, IsReal (x0 i)) (idx : IVec ⟨2, ![E, 1]⟩ w)
    (upd : (⟨2, ![E, C]⟩ : Shape).Idx → EReal) (hupd : ∀ j, IsReal (upd j))
    (j : (⟨2, ![N, C]⟩ : Shape).Idx) :
    IsReal (Ideal.hostScatterAdd (rowScatterDims N E C wf) x0 idx upd j) := by
  obtain ⟨n, k, rfl⟩ : ∃ (n : Fin N) (k : Fin C), j = ix2 n k := ⟨j 0, j 1, eq_ix2 j⟩
  rw [hostScatterAdd_rows_apply]
  exact (hx0 _).add (IsReal.sum _ _ (fun e _ => IsReal.ite (hupd _) isReal_zero))

/-- THE GATHER/SCATTER TERM IS REAL, at `(n, k)`: gather the rows of a real matrix `xw` at the row numbers `gi`,
    scale each gathered element by a real coefficient `nrm`, and scatter-add the scaled rows by the segment numbers
    `si` onto a real matrix `x0`; every element of the result is real. -/
theorem isReal_scatter_gather (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (xw : (⟨2, ![N, C]⟩ : Shape).Idx → EReal) (hxw : ∀ i, IsReal (xw i))
    (nrm : (⟨2, ![E, C]⟩ : Shape).Idx → EReal) (hnrm : ∀ j, IsReal (nrm j))
    (gi si : IVec ⟨2, ![E, 1]⟩ w)
    (x0 : (⟨2, ![N, C]⟩ : Shape).Idx → EReal) (hx0 : ∀ i, IsReal (x0 i)) (n : Fin N) (k : Fin C) :
    IsReal (Ideal.hostScatterAdd (rowScatterDims N E C wfS) x0 si
      (fun j => Host.gather (rowGatherDims N E C wfG) xw gi j * nrm j) (ix2 n k)) :=
  isReal_rowScatterAdd wfS x0 hx0 si _ (fun j => (isReal_rowGather hN wfG xw hxw gi j).mul (hnrm j)) (ix2 n k)

/-- The same at an arbitrary index of the result. -/
theorem isReal_scatter_gather_idx (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (xw : (⟨2, ![N, C]⟩ : Shape).Idx → EReal) (hxw : ∀ i, IsReal (xw i))
    (nrm : (⟨2, ![E, C]⟩ : Shape).Idx → EReal) (hnrm : ∀ j, IsReal (nrm j))
    (gi si : IVec ⟨2, ![E, 1]⟩ w)
    (x0 : (⟨2, ![N, C]⟩ : Shape).Idx → EReal) (hx0 : ∀ i, IsReal (x0 i)) (j : (⟨2, ![N, C]⟩ : Shape).Idx) :
    IsReal (Ideal.hostScatterAdd (rowScatterDims N E C wfS) x0 si
      (fun j => Host.gather (rowGatherDims N E C wfG) xw gi j * nrm j) j) :=
  isReal_rowScatterAdd wfS x0 hx0 si _ (fun j => (isReal_rowGather hN wfG xw hxw gi j).mul (hnrm j)) j

end Rows

/-! ## Float literals at the exact instance, and a guard that is decided -/

/-- The f32 pattern `0x3F800000` is the extended real one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- The f32 pattern `0x47C35000` is the real number one hundred thousand: exponent field `143`, significand
    `2^23 + 4411392 = 12800000`, value `12800000 · 2^(143 − 127 − 23) = 100000`. -/
theorem ofBits_100000_f32 : Ideal.ofBits .f32 0x47C35000#32 = ((100000 : ℝ) : EReal) := by
  simp [Ideal.ofBits, Ideal.ieee, -EReal.coe_mul]; norm_num

/-- The f32 pattern `0x3727C5AC` is a real number: its exponent field, `110`, is neither all ones nor zero. -/
theorem isReal_ofBits_3727C5AC : IsReal (Ideal.ofBits .f32 0x3727C5AC#32) := by
  show IsReal (Ideal.ieee 8 23 (0x3727C5AC#32 : BitVec 32))
  unfold Ideal.ieee
  dsimp only
  split
  · rename_i h; exact absurd h (by decide)
  · split <;> exact isReal_coe _

/-- The signed integer zero, as a float, is zero. -/
theorem sitofp_zero32 : FloatOps.sitofp (F := Ideal) .f32 (0#32 : BitVec 32) = (0 : EReal) := by
  show (((0#32 : BitVec 32).toInt : ℝ) : EReal) = 0
  simp

/-- One hundred thousand minus the integer zero, as floats, is one hundred thousand. -/
theorem guard_count :
    FloatOps.subf (F := Ideal) (φ := .f32) (Ideal.ofBits .f32 0x47C35000#32)
      (FloatOps.sitofp (F := Ideal) .f32 (0#32 : BitVec 32)) = ((100000 : ℝ) : EReal) := by
  show Ideal.ofBits .f32 0x47C35000#32 - FloatOps.sitofp (F := Ideal) .f32 (0#32 : BitVec 32) = _
  rw [sitofp_zero32, ofBits_100000_f32, sub_zero]

/-- … and it is greater than zero, so the comparison's bit is set … -/
theorem guard_cmp :
    FloatOps.cmpf (F := Ideal) (φ := .f32) .ogt
      (FloatOps.subf (F := Ideal) (φ := .f32) (Ideal.ofBits .f32 0x47C35000#32)
        (FloatOps.sitofp (F := Ideal) .f32 (0#32 : BitVec 32)))
      (Ideal.ofBits .f32 0x00000000#32) = 1#1 := by
  rw [guard_count, Ideal.ofBits_zero_f32]
  show Ideal.cmp .ogt ((100000 : ℝ) : EReal) 0 = 1#1
  have hpos : (0 : EReal) < ((100000 : ℝ) : EReal) := by exact_mod_cast (by norm_num : (0 : ℝ) < 100000)
  simp [Ideal.cmp, hpos]

/-- … and a selection on it takes its first operand. -/
theorem guard_select {α : Type} (a b : α) :
    Scalar.select (FloatOps.cmpf (F := Ideal) (φ := .f32) .ogt
      (FloatOps.subf (F := Ideal) (φ := .f32) (Ideal.ofBits .f32 0x47C35000#32)
        (FloatOps.sitofp (F := Ideal) .f32 (0#32 : BitVec 32)))
      (Ideal.ofBits .f32 0x00000000#32)) a b = a := by
  rw [guard_cmp]
  exact select_one a b

end Cert.BnMath

end
-- ==== Proof.RefTail.lean ====
/-
  THE REFERENCE'S NORMALISATION, READ AT AN ENTRY, AND ITS NORMAL FORM.

  After the bias the reference normalises each column of a matrix `o : [100000, 128]` by the column's mean and
  variance, scales, shifts and keeps the positive part. Read at row `R` and column `q`, over the extended reals:

  * a vector repeated on every row reads the vector at the column (`rowBc_apply`);
  * the mean is the column's sum, from zero, over the row count (`meanOf_apply`);
  * a deviation is the entry less that mean (`devOf_apply`);
  * the variance is the sum of the squared deviations, from zero, over the row count: the guard "the divisor is
    positive" is decided, the divisor being one hundred thousand less zero (`varOf_apply`);
  * the result is the maximum of `((o − mean) · rsqrt (var + ε)) · γ + β` and zero (`tailOf_apply`).

  The normal form writes the variance as the mean of the squares less the squared mean. For a matrix of real numbers the
  two forms of the variance agree, so the reference's entry IS the normal form (`tailOf_eq_nf`).
-/
import proofs.«172672_j70489003262548_1_alg».proof.Proof.RefStages
import proofs.«172672_j70489003262548_1_alg».proof.Proof.BnMath
import proofs.«172672_j70489003262548_1_alg».proof.Proof.BnSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefTail

open Idealize.ShloMosaic Idealize.ShloMosaic.ValueIdx Cert.ReferenceIdeal Cert.ReferenceIdeal.Gen
  Cert.ReferenceIdeal.RefRun Cert.BnMath
open scoped BigOperators

/-- The reduction over the row axis, as the relation that names the inserted index. -/
theorem reduces_rows : S100000x128.Reduces [0] S128 := by decide

/-- The index the reduction over the row axis inserts row `R` into, at column `q`, is `(R, q)`. -/
theorem lift_rows (h : S100000x128.Reduces [0] S128) (q : Fin 128) (R : Fin 100000) :
    h.lift (ix1 q) R = ix2 R q := by
  funext a
  match a with
  | ⟨0, _⟩ => exact Fin.ext rfl
  | ⟨1, _⟩ => exact Fin.ext rfl

/-- (1) A vector repeated on every row reads, at `(R, q)`, the vector at `q`. -/
theorem rowBc_apply (v : (⟨S128, .f32⟩ : BufTy).Contents (Elt Ideal)) (R : Fin 100000) (q : Fin 128) :
    rowBc v (ix2 R q) = v (ix1 q) := by
  unfold rowBc
  refine (broadcastInDim_apply _ _ _ (ix2 R q) (ix2 (0 : Fin 1) q) (fun a => ?_)).trans
    (broadcastInDim_apply _ _ _ (ix2 (0 : Fin 1) q) (ix1 q) (fun a => ?_))
  · match a with
    | ⟨0, _⟩ => rfl
    | ⟨1, _⟩ => rfl
  · match a with
    | ⟨0, _⟩ => rfl

/-- The host's sum over the rows from the zero constant, at column `q`: zero plus the sum of the column. -/
theorem colsum_apply (v : (⟨S100000x128, .f32⟩ : BufTy).Contents (Elt Ideal)) (q : Fin 128) :
    Host.reduceAdd (F := Ideal) (φ := .f32) v (constant (F := Ideal) S_ .f32 0x00000000#32)
        reducesTo_S100000x128_S128_d0 h_S_ (ix1 q)
      = (0 : EReal) + ∑ R : Fin 100000, v (ix2 R q) := by
  refine (Ideal.hostReduceAdd_single reducesTo_S100000x128_S128_d0 reduces_rows v _ (ix1 q)).trans ?_
  refine congrArg₂ (· + ·) Ideal.ofBits_zero_f32 (Finset.sum_congr rfl (fun R _ => congrArg v (lift_rows _ q R)))

/-- (2) The column mean is the normal form's. -/
theorem meanOf_apply (o : (⟨S100000x128, .f32⟩ : BufTy).Contents (Elt Ideal)) (q : Fin 128) :
    meanOf o (ix1 q) = Cert.BnSpec.mu o q := by
  unfold meanOf Cert.BnSpec.mu
  exact congrArg (Ideal.div · (Ideal.ofBits .f32 0x47C35000#32)) (colsum_apply o q)

/-- (3) A deviation: the entry less its column's mean. -/
theorem devOf_apply (o : (⟨S100000x128, .f32⟩ : BufTy).Contents (Elt Ideal)) (R : Fin 100000) (q : Fin 128) :
    devOf o (ix2 R q) = o (ix2 R q) - Cert.BnSpec.mu o q := by
  unfold devOf Cert.BnSpec.mu
  refine congrArg (o (ix2 R q) - ·) ?_
  refine (broadcastInDim_apply _ _ _ (ix2 R q) (ix2 (0 : Fin 1) q) (fun a => ?_)).trans ?_
  · match a with
    | ⟨0, _⟩ => rfl
    | ⟨1, _⟩ => rfl
  refine congrArg (Ideal.div · (Ideal.ofBits .f32 0x47C35000#32)) ?_
  refine (broadcastInDim_apply _ _ _ (ix2 (0 : Fin 1) q) (ix1 q) (fun a => ?_)).trans (colsum_apply o q)
  match a with
  | ⟨0, _⟩ => rfl

/-- (4) The column variance: the sum of the squared deviations, from zero, over one hundred thousand. The guard on
    the divisor is decided, and the divisor is one hundred thousand. -/
theorem varOf_apply (o : (⟨S100000x128, .f32⟩ : BufTy).Contents (Elt Ideal)) (q : Fin 128) :
    varOf o (ix1 q)
      = Ideal.div ((0 : EReal) + ∑ R : Fin 100000,
          (o (ix2 R q) - Cert.BnSpec.mu o q) * (o (ix2 R q) - Cert.BnSpec.mu o q)) ((100000 : ℝ) : EReal) := by
  unfold varOf
  refine (guard_select _ _).trans ?_
  refine congrArg₂ Ideal.div ((colsum_apply _ q).trans ?_) guard_count
  refine congrArg ((0 : EReal) + ·) (Finset.sum_congr rfl (fun R _ => ?_))
  exact congrArg₂ (· * ·) (devOf_apply o R q) (devOf_apply o R q)

/-- (5) The result at `(R, q)`. -/
theorem tailOf_apply (o : (⟨S100000x128, .f32⟩ : BufTy).Contents (Elt Ideal))
    (g be : (⟨S128, .f32⟩ : BufTy).Contents (Elt Ideal)) (R : Fin 100000) (q : Fin 128) :
    tailOf o g be (ix2 R q)
      = max (((o (ix2 R q) - meanOf o (ix1 q))
            * Ideal.rsqrt (varOf o (ix1 q) + Ideal.ofBits .f32 0x3727C5AC#32)) * g (ix1 q) + be (ix1 q))
          (Ideal.ofBits .f32 0x00000000#32) := by
  unfold tailOf
  refine congrArg (max · (Ideal.ofBits .f32 0x00000000#32)) ?_
  refine congrArg₂ (· + ·) (congrArg₂ (· * ·) (congrArg₂ (· * ·) ?_ ?_) (rowBc_apply g R q)) (rowBc_apply be R q)
  · exact congrArg (o (ix2 R q) - ·) (rowBc_apply (meanOf o) R q)
  · exact rowBc_apply _ R q

/-- For a matrix of real numbers the normal form's variance (mean of squares less squared mean) is the mean of the
    squared deviations. -/
theorem sigma_eq (o : (⟨S100000x128, .f32⟩ : BufTy).Contents (Elt Ideal)) (ho : ∀ i, IsReal (o i)) (q : Fin 128) :
    Cert.BnSpec.sigma o q
      = Ideal.div ((0 : EReal) + ∑ R : Fin 100000,
          (o (ix2 R q) - Cert.BnSpec.mu o q) * (o (ix2 R q) - Cert.BnSpec.mu o q)) ((100000 : ℝ) : EReal) := by
  unfold Cert.BnSpec.sigma Cert.BnSpec.mu
  rw [ofBits_100000_f32]
  exact var_identity_zero_add (fun R : Fin 100000 => o (ix2 R q)) (fun R => ho _) 100000 (by norm_num) (by simp)

/-- (6) THE BRIDGE: on a matrix of real numbers the reference's entry is the normal form. -/
theorem tailOf_eq_nf (o : (⟨S100000x128, .f32⟩ : BufTy).Contents (Elt Ideal))
    (g be : (⟨S128, .f32⟩ : BufTy).Contents (Elt Ideal)) (ho : ∀ i, IsReal (o i)) (R : Fin 100000) (q : Fin 128) :
    tailOf o g be (ix2 R q) = Cert.BnSpec.nf o g be R q := by
  rw [tailOf_apply, meanOf_apply, varOf_apply, ← sigma_eq o ho q]
  rfl

end Cert.ReferenceIdeal.RefTail

end
-- ==== Proof.RefReal.lean ====
/-
  THE MATRIX THE REFERENCE NORMALISES IS REAL.

  The matrix that enters the normalisation is the projected features `x · W`, carried along the edges (every edge
  takes its source's row, scaled by the edge's coefficient, to its destination, where the rows are summed into zeros),
  plus the bias row. Over the extended reals, if `x`, `W` and the bias are real then every entry of that matrix is:

  * an entry of the product is a finite sum of products of reals (`dot_apply`, `isReal_dotGeneral`);
  * a node's weight is the reciprocal square root of `max d 1`, real for every extended real `d`, so the degree
    count need not be looked into (`isReal_dis`); an edge's coefficient is a product of two gathered weights
    (`isReal_norm`);
  * a gather reads its operand at some index, a broadcast likewise, and an accumulating scatter adds a finite sum of
    update elements onto an operand element: real in, real out (`isReal_gather`, `isReal_broadcastInDim`,
    `isReal_scatterAdd`); hence the aggregation of a real matrix is real (`isReal_raw`), and with the bias added
    (`isReal_o`).
-/
import proofs.«172672_j70489003262548_1_alg».proof.Proof.RefStages
import proofs.«172672_j70489003262548_1_alg».proof.Proof.BnMath
import proofs.«172672_j70489003262548_1_alg».proof.Proof.LibPlainDot
import Idealize.ShloMosaic.Lib.ValueIdx
import Idealize.ShloMosaic.PureOps.Ideal.Laws

noncomputable section

namespace Cert.ReferenceIdeal.RefReal

open Idealize.ShloMosaic Idealize.ShloMosaic.ValueIdx Cert.ReferenceIdeal Cert.ReferenceIdeal.Gen
  Cert.ReferenceIdeal.RefRun Cert.BnMath
open scoped BigOperators

/-! ## Real in, real out: a gather, a broadcast, an accumulating scatter -/

/-- A gather reads its operand at some index. -/
theorem isReal_gather {s si t : Shape} {w : Nat} (d : GatherDims s si t) (x : s.Idx → EReal)
    (hx : ∀ i, IsReal (x i)) (idx : IVec si w) (j : t.Idx) : IsReal (Host.gather d x idx j) := by
  unfold Host.gather
  exact hx _

/-- A broadcast reads its operand at some index. -/
theorem isReal_broadcastInDim {s t : Shape} (dims : Fin s.rank → Fin t.rank) (h : s.BroadcastsInDim t dims)
    (x : s.Idx → EReal) (hx : ∀ i, IsReal (x i)) (j : t.Idx) : IsReal (broadcastInDim t dims h x j) := by
  unfold broadcastInDim
  exact hx _

/-- An accumulating scatter adds, onto an operand element, a finite sum of update elements. -/
theorem isReal_scatterAdd {s si u : Shape} {w : Nat} (d : ScatterDims s si u) (x : FVec Ideal s .f32)
    (hx : ∀ i, IsReal (x i)) (idx : IVec si w) (upd : FVec Ideal u .f32) (hupd : ∀ j, IsReal (upd j)) (i : s.Idx) :
    IsReal (Host.scatterAdd (F := Ideal) (φ := .f32) d x idx upd i) := by
  show IsReal (Ideal.hostScatterAdd d x idx upd i)
  unfold Ideal.hostScatterAdd
  exact (hx i).add (IsReal.sum _ _ (fun j _ => hupd j))

/-- A product at an index of two arrays real there is real. -/
theorem isReal_mulf {s : Shape} (a b : FVec Ideal s .f32) (i : s.Idx) (ha : IsReal (a i)) (hb : IsReal (b i)) :
    IsReal (mulf (F := Ideal) (φ := .f32) a b i) :=
  ha.mul hb

/-- A sum at an index of two arrays real there is real. -/
theorem isReal_addf {s : Shape} (a b : FVec Ideal s .f32) (i : s.Idx) (ha : IsReal (a i)) (hb : IsReal (b i)) :
    IsReal (addf (F := Ideal) (φ := .f32) a b i) :=
  ha.add hb

/-- The reciprocal square root of the larger of ANY array's element and the constant one is real: whatever the
    array is (it is not looked into). -/
theorem isReal_rsqrt_max_bcast_one {s : Shape} (A : FVec Ideal s .f32)
    (h : S_.BroadcastsInDim s (![] : Fin 0 → Fin s.rank)) (i : s.Idx) :
    IsReal (Host.rsqrt (F := Ideal) (φ := .f32) (maximumf (F := Ideal) (φ := .f32) A
      (broadcastInDim s ![] h (constant (F := Ideal) S_ .f32 0x3F800000#32))) i) := by
  show IsReal (Ideal.rsqrt (max (A i) (Ideal.ofBits .f32 0x3F800000#32)))
  rw [ofBits_one_f32]
  exact isReal_rsqrt_max_one _

/-- The zero constant, broadcast, is real everywhere. -/
theorem isReal_zeros {t : Shape} (h : S_.BroadcastsInDim t (![] : Fin 0 → Fin t.rank)) (j : t.Idx) :
    IsReal (broadcastInDim t ![] h (constant (F := Ideal) S_ .f32 0x00000000#32) j) := by
  refine isReal_broadcastInDim _ _ _ (fun i => ?_) j
  show IsReal (Ideal.ofBits .f32 0x00000000#32)
  rw [Ideal.ofBits_zero_f32]
  exact isReal_zero

/-! ## The projected features -/

/-- (a) An entry of the product: the sum over the inner extent. -/
theorem dot_apply (x : (⟨S100000x128, .f32⟩ : BufTy).Contents (Elt Ideal))
    (W : (⟨S128x128, .f32⟩ : BufTy).Contents (Elt Ideal)) (R : Fin 100000) (c : Fin 128) :
    Host.dotGeneral (F := Ideal) (φ₁ := .f32) (φ₂ := .f32) dot_S100000x128_S128x128_S100000x128_1_0_0_1_n_n none x W
        (ix2 R c)
      = ∑ k : Fin 128, x (ix2 R k) * W (ix2 k c) := by
  refine (Ideal.dotGeneral_apply dot_S100000x128_S128x128_S100000x128_1_0_0_1_n_n none .single x W (ix2 R c)).trans ?_
  exact PlainDot.contraction_eq_sum dot_S100000x128_S128x128_S100000x128_1_0_0_1_n_n (by rfl) (by rfl)
    (fun _ _ => rfl) (fun _ _ => rfl) (fun _ _ => rfl) (fun _ _ => rfl) x W R c

/-- The product of two real matrices is real at every index. -/
theorem isReal_dotGeneral (x : (⟨S100000x128, .f32⟩ : BufTy).Contents (Elt Ideal))
    (W : (⟨S128x128, .f32⟩ : BufTy).Contents (Elt Ideal)) (hx : ∀ i, IsReal (x i)) (hW : ∀ i, IsReal (W i))
    (j : S100000x128.Idx) :
    IsReal (Host.dotGeneral (F := Ideal) (φ₁ := .f32) (φ₂ := .f32) dot_S100000x128_S128x128_S100000x128_1_0_0_1_n_n
      none x W j) := by
  obtain ⟨R, c, rfl⟩ : ∃ (R : Fin 100000) (c : Fin 128), j = ix2 R c := ⟨j 0, j 1, eq_ix2 j⟩
  rw [dot_apply]
  exact isReal_dot _ _ (fun k => hx _) (fun k => hW _)

/-! ## The weights and the coefficients -/

/-- (b) A node's weight is real: the reciprocal square root of the larger of the degree and one. -/
theorem isReal_dis (ei : (⟨S2x1600000, .i32⟩ : BufTy).Contents (Elt Ideal)) (i : S100000.Idx) :
    IsReal (disOf ei i) := by
  unfold disOf
  exact isReal_rsqrt_max_bcast_one _ _ i

/-- An edge's coefficient is real: the product of two gathered weights. -/
theorem isReal_norm (ei : (⟨S2x1600000, .i32⟩ : BufTy).Contents (Elt Ideal)) (e : S1700000.Idx) :
    IsReal (normOf ei e) := by
  unfold normOf
  exact isReal_mulf _ _ e (isReal_gather _ _ (isReal_dis ei) _ e) (isReal_gather _ _ (isReal_dis ei) _ e)

/-! ## The aggregation, and the bias -/

/-- (c) The aggregation of a real matrix is real at every index. -/
theorem isReal_raw (xw : (⟨S100000x128, .f32⟩ : BufTy).Contents (Elt Ideal))
    (ei : (⟨S2x1600000, .i32⟩ : BufTy).Contents (Elt Ideal)) (hxw : ∀ i, IsReal (xw i)) (j : S100000x128.Idx) :
    IsReal (rawOf xw ei j) := by
  unfold rawOf
  refine isReal_scatterAdd _ _ (fun i => isReal_zeros _ i) _ _ (fun u => ?_) j
  exact isReal_mulf _ _ u (isReal_gather _ _ hxw _ u)
    (isReal_broadcastInDim _ _ _ (fun v => isReal_broadcastInDim _ _ _ (isReal_norm ei) v) u)

/-- A real vector repeated on every row is real at every index. -/
theorem isReal_rowBc (b : (⟨S128, .f32⟩ : BufTy).Contents (Elt Ideal)) (hb : ∀ i, IsReal (b i)) (j : S100000x128.Idx) :
    IsReal (rowBc b j) := by
  unfold rowBc
  exact isReal_broadcastInDim _ _ _ (fun v => isReal_broadcastInDim _ _ _ hb v) j

/-- (d) THE MATRIX THE REFERENCE NORMALISES IS REAL when the features, the projection and the bias are. -/
theorem isReal_o (x : (⟨S100000x128, .f32⟩ : BufTy).Contents (Elt Ideal))
    (ei : (⟨S2x1600000, .i32⟩ : BufTy).Contents (Elt Ideal)) (W : (⟨S128x128, .f32⟩ : BufTy).Contents (Elt Ideal))
    (b : (⟨S128, .f32⟩ : BufTy).Contents (Elt Ideal)) (hx : ∀ i, IsReal (x i)) (hW : ∀ i, IsReal (W i))
    (hb : ∀ i, IsReal (b i)) (i : S100000x128.Idx) :
    IsReal (addf (F := Ideal) (φ := .f32)
      (rawOf (Host.dotGeneral (F := Ideal) (φ₁ := .f32) (φ₂ := .f32) dot_S100000x128_S128x128_S100000x128_1_0_0_1_n_n
        none x W) ei) (rowBc b) i) :=
  isReal_addf _ _ i (isReal_raw _ ei (isReal_dotGeneral x W hx hW) i) (isReal_rowBc b hb i)

end Cert.ReferenceIdeal.RefReal

end
-- ==== Proof.PreReal.lean ====
/-
  THE PRECONDITION "EVERY INPUT IS FINITE", DECODED.

  The precondition is the conjunction, over the five float inputs, of "every element's absolute value is below `+∞`"
  (the integer input is not constrained). An extended real whose absolute value is below `+∞` is a real number, so
  under the precondition every element of every float input is real (`reals_of_pre`). The road: read the
  precondition's one result element; split the conjunction of the five bits; a conjunction over all the elements of an
  array that came out 1 had a 1 at every element; at an element the bit is the comparison of `max x (−x)` with the
  value the pattern of the positive infinity denotes, which is `⊤`; and of the three kinds of extended real only a
  real number has its absolute value below `⊤`.
-/
import proofs.«172672_j70489003262548_1_alg».proof.Proof.Gen.Pre_finite_inputs
import proofs.«172672_j70489003262548_1_alg».proof.Proof.BnMath
import Idealize.ShloMosaic.Lib.ReduceAll
import Idealize.ShloMosaic.Lib.ValueIdx
import Idealize.ShloMosaic.PureOps.Ideal
import Idealize.ShloMosaic.PureOps.Ideal.Laws

noncomputable section

namespace Cert.PreReal

open Idealize.ShloMosaic Cert.BnMath Cert.Pre_finite_inputs

/-- The scalar shape has one index. -/
instance : Subsingleton S_.Idx := ⟨fun a b => funext fun d => d.elim0⟩

/-- The pattern of the positive infinity denotes `⊤`. -/
theorem ofBits_inf : Ideal.ofBits .f32 0x7F800000#32 = ⊤ := by simp [Ideal.ofBits, Ideal.ieee]

/-- An extended real whose absolute value is below `+∞` is a real number: the absolute value of either infinity is
    `⊤`, which is not below itself. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact isReal_coe r

/-- UNDER THE PRECONDITION EVERY ELEMENT OF EVERY FLOAT INPUT IS A REAL NUMBER. -/
theorem reals_of_pre (x : FVec Ideal S100000x128 .f32) (ei : IVec S2x1600000 32) (W : FVec Ideal S128x128 .f32)
    (b g be : FVec Ideal S128 .f32)
    (h : Cert.Pre_finite_inputs.fn (F := Ideal) x ei W b g be = (fun _ => 1#1)) :
    (∀ i, IsReal (x i)) ∧ (∀ i, IsReal (W i)) ∧ (∀ i, IsReal (b i)) ∧ (∀ i, IsReal (g i)) ∧ (∀ i, IsReal (be i)) := by
  have e := congrFun h ValueIdx.ix0
  dsimp only [Cert.Pre_finite_inputs.fn, Cert.Pre_finite_inputs.fn_part1] at e
  simp only [andi, IntOp.andi_eq_one] at e
  obtain ⟨⟨⟨⟨h0, h2⟩, h3⟩, h4⟩, h5⟩ := e
  refine ⟨fun i => ?_, fun i => ?_, fun i => ?_, fun i => ?_, fun i => ?_⟩
  · exact isReal_of_abs_lt_inf (x i) (Host.reduce_andi_all _ _ _ _ _ h0 i)
  · exact isReal_of_abs_lt_inf (W i) (Host.reduce_andi_all _ _ _ _ _ h2 i)
  · exact isReal_of_abs_lt_inf (b i) (Host.reduce_andi_all _ _ _ _ _ h3 i)
  · exact isReal_of_abs_lt_inf (g i) (Host.reduce_andi_all _ _ _ _ _ h4 i)
  · exact isReal_of_abs_lt_inf (be i) (Host.reduce_andi_all _ _ _ _ _ h5 i)

end Cert.PreReal

end
-- ==== Proof.Bridge.lean ====
/-
  The two results are one array.

  Entry (R, q) of the kernel's result is the normal form of the matrix "aggregation of x·W along the edges, plus
  bias"; entry (R, q) of the reference's result is the same normal form of the same matrix, once every entry of that
  matrix is known to be a real number — the two programs compute a column's variance as "mean of squares less squared
  mean" and as "mean of squared deviations", which agree on real entries. The matrices are the same because the
  kernel's blocked product and the host's dot_general are the same sum over the inner index, and the gather, the
  edge coefficients and the scatter-add are the same host operations in both programs. Real entries come from the
  precondition (finite inputs): finite sums and products of reals, a clamped gather and a dropping scatter-add keep
  entries real, and an inverse square root of a degree that is at least one is real.
-/
import proofs.«172672_j70489003262548_1_alg».proof.Defs
import proofs.«172672_j70489003262548_1_alg».proof.Proof.KRun
import proofs.«172672_j70489003262548_1_alg».proof.Proof.KEntry
import proofs.«172672_j70489003262548_1_alg».proof.Proof.RefRun
import proofs.«172672_j70489003262548_1_alg».proof.Proof.RefTail
import proofs.«172672_j70489003262548_1_alg».proof.Proof.RefReal
import proofs.«172672_j70489003262548_1_alg».proof.Proof.PreReal
import proofs.«172672_j70489003262548_1_alg».proof.Proof.BnSpec

set_option maxRecDepth 16384

noncomputable section

open scoped BigOperators

namespace Cert.Proof.Bridge

open Idealize.ShloMosaic Idealize.ShloMosaic.TcCoe Idealize.SL.Sem Idealize.ShloMosaic.ValueIdx
open Cert.KernelIdeal.KVal Cert.ReferenceIdeal.RefRun Cert.BnMath

/-- The aggregation along the edges is the same function in both programs: the same host operations, over dimension
    records that differ only in the proofs they carry. -/
theorem kRaw_eq (xw : (⟨Cert.KernelIdeal.S100000x128, .f32⟩ : BufTy).Contents (Elt Ideal))
    (ei : (⟨Cert.KernelIdeal.S2x1600000, .i32⟩ : BufTy).Contents (Elt Ideal)) : kRaw xw ei = rawOf xw ei := rfl

/-- The kernel's blocked product is the host's dot_general: both are the sum over the inner index. -/
theorem xw_eq (x : (⟨Cert.ReferenceIdeal.S100000x128, .f32⟩ : BufTy).Contents (Elt Ideal))
    (W : (⟨Cert.ReferenceIdeal.S128x128, .f32⟩ : BufTy).Contents (Elt Ideal)) :
    xwOf x W = Host.dotGeneral (F := Ideal) (φ₁ := .f32) (φ₂ := .f32)
      Cert.ReferenceIdeal.dot_S100000x128_S128x128_S100000x128_1_0_0_1_n_n none x W := by
  funext i
  rw [eq_ix2 i]
  exact (Cert.ReferenceIdeal.RefReal.dot_apply x W _ _).symm

/-- THE RESULTS AGREE: from a launch memory of which the precondition holds, the reference's result of the kernel's
    argument arrays is the kernel's result array. -/
theorem out_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = (fun _ => 1#1)) :
    refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = Cert.KernelIdeal.Gen.W6 m ρ c (Proc.devRef .tc Cert.KernelIdeal.main_v55) := by
  obtain ⟨hx, hW, hb, hg, hbe⟩ := Cert.PreReal.reals_of_pre _ _ _ _ _ _ hpre
  funext i
  rw [eq_ix2 i]
  refine (Cert.ReferenceIdeal.RefTail.tailOf_eq_nf _ _ _
    (Cert.ReferenceIdeal.RefReal.isReal_o _ _ _ _ hx hW hb) (i 0) (i 1)).trans ?_
  refine (Cert.BnSpec.nf_congr (fun R q => ?_) _ _ (i 0) (i 1)).trans (kernel_entry m ρ c (i 0) (i 1)).symm
  rw [kO_apply, kRaw_eq, xw_eq]
  exact (addf_apply _ _ (ix2 R q)).trans (congrArg (_ + ·) (Cert.ReferenceIdeal.RefTail.rowBc_apply _ R q))

end Cert.Proof.Bridge

end
-- ==== Proof.lean ====
/-
  The certificate's five claims.

  The two kernel programs' frames are their launches over @main's six segments: every weakly fair execution
  terminates, nothing faults, the argument arrays end as launched. The reference is a straight line of host
  operations, and its frame is its run with the result dropped. The idealisation rewrote no operation. At the exact
  instance the kernel's result array and the reference's are one array (Proof/Bridge.lean): both runs end with it.
-/
import proofs.«172672_j70489003262548_1_alg».proof.Defs
import proofs.«172672_j70489003262548_1_alg».proof.Proof.Gen.Kernel
import proofs.«172672_j70489003262548_1_alg».proof.Proof.Gen.Kernel.Skeleton
import proofs.«172672_j70489003262548_1_alg».proof.Proof.Gen.Kernel.Launch
import proofs.«172672_j70489003262548_1_alg».proof.Proof.Gen.Kernel.Points
import proofs.«172672_j70489003262548_1_alg».proof.Proof.Gen.Kernel.Frame
import proofs.«172672_j70489003262548_1_alg».proof.Proof.Gen.KernelIdeal
import proofs.«172672_j70489003262548_1_alg».proof.Proof.Gen.KernelIdeal.Skeleton
import proofs.«172672_j70489003262548_1_alg».proof.Proof.Gen.KernelIdeal.Launch
import proofs.«172672_j70489003262548_1_alg».proof.Proof.Gen.KernelIdeal.Points
import proofs.«172672_j70489003262548_1_alg».proof.Proof.Gen.KernelIdeal.Frame
import proofs.«172672_j70489003262548_1_alg».proof.Proof.Gen.ReferenceIdeal
import proofs.«172672_j70489003262548_1_alg».proof.Proof.Gen.Pre_finite_inputs
import proofs.«172672_j70489003262548_1_alg».proof.Proof.KRun
import proofs.«172672_j70489003262548_1_alg».proof.Proof.RefRun
import proofs.«172672_j70489003262548_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

set_option maxHeartbeats 2000000 in
/-- Both idealised programs end with the same result array: the kernel's run names its result, the reference's run
    ends at its result function of arguments that agree with the kernel's, and the two are one array. -/
theorem algebraic : Cert.algebraic_KernelIdeal_ReferenceIdeal := by
  intro m ρ m' ρ' hpre hagree
  refine ⟨fun c => Cert.KernelIdeal.Gen.W6 m ρ c (Proc.devRef .tc Cert.KernelIdeal.main_v55),
    Cert.KernelIdeal.KVal.run_last m ρ, ?_⟩
  refine (θ_run Cert.ReferenceIdeal.defs _ _).mono (fun r h c => ⟨(h c).1.trans ?_, (h c).2⟩)
    (Cert.ReferenceIdeal.RefRun.run m' ρ')
  obtain ⟨h0, h1, h2, h3, h4, h5⟩ := hagree c
  rw [h0, h1, h2, h3, h4, h5]
  exact Cert.Proof.Bridge.out_eq m ρ c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
